-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x1024 : Shape := ⟨3, ![2, 4096, 1024]⟩
abbrev S2x1x4096x4096 : Shape := ⟨4, ![2, 1, 4096, 4096]⟩
abbrev S1024x1024 : Shape := ⟨2, ![1024, 1024]⟩
abbrev S1024 : Shape := ⟨1, ![1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x1x4096x4096 : S_.BroadcastsInDim S2x1x4096x4096 (![] : Fin 0 → Fin S2x1x4096x4096.rank)
  reducesTo_S2x1x4096x4096_S_d0_1_2_3 : S2x1x4096x4096.ReducesTo [0, 1, 2, 3] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S2x4096x1024 .f32) (main_arg1 : FVec F S2x1x4096x4096 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x1x4096x4096 .f32 := Host.absf main_arg1
  let main_cst_0 : FVec F S_ .f32 := constant S_ .f32 0x7F800000#32
  let main_v5 : FVec F S2x1x4096x4096 .f32 := broadcastInDim S2x1x4096x4096 ![] bcast_S_S2x1x4096x4096 main_cst_0
  let main_v6 : IVec S2x1x4096x4096 1 := cmpf .olt main_v4 main_v5
  let main_c_1 : IVec S_ 1 := constantI S_ 1 1#1
  let main_v7 : IVec S_ 1 := (fun x v => Host.reduce IntOp.andi x v reducesTo_S2x1x4096x4096_S_d0_1_2_3 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S2x4096x1024 : Shape := ⟨3, ![2, 4096, 1024]⟩
abbrev S2x1x4096x4096 : Shape := ⟨4, ![2, 1, 4096, 4096]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S3072 : Shape := ⟨1, ![3072]⟩
abbrev S1x3072 : Shape := ⟨2, ![1, 3072]⟩
abbrev S8192x3072 : Shape := ⟨2, ![8192, 3072]⟩
abbrev S1x1024 : Shape := ⟨2, ![1, 1024]⟩
abbrev S2x4096x3072 : Shape := ⟨3, ![2, 4096, 3072]⟩
abbrev S1x512x1024 : Shape := ⟨3, ![1, 512, 1024]⟩
abbrev S1x1x512x512 : Shape := ⟨4, ![1, 1, 512, 512]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 21
  | .vmem => 18
  | .smem => 0
  | _ => 0

abbrev bufTy : (tb : Table) → Fin (tcTables nBuf tb) → BufTy
  | .hbm, ⟨0, _⟩ => ⟨S2x4096x1024, .f32⟩
  | .hbm, ⟨1, _⟩ => ⟨S2x1x4096x4096, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x3072, .f32⟩
  | .hbm, ⟨13, _⟩ => ⟨S3072, .f32⟩
  | .hbm, ⟨14, _⟩ => ⟨S1x3072, .f32⟩
  | .hbm, ⟨15, _⟩ => ⟨S8192x3072, .f32⟩
  | .hbm, ⟨16, _⟩ => ⟨S2x4096x3072, .f32⟩
  | .hbm, ⟨17, _⟩ => ⟨S2x4096x1024, .f32⟩
  | .hbm, ⟨18, _⟩ => ⟨S2x4096x1024, .f32⟩
  | .hbm, ⟨19, _⟩ => ⟨S2x4096x1024, .f32⟩
  | .hbm, ⟨20, _⟩ => ⟨S2x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x1x512x512, .f32⟩
  | .local _ .vmem, ⟨15, _⟩ => ⟨S1x1x512x512, .f32⟩
  | .local _ .vmem, ⟨16, _⟩ => ⟨S1x512x1024, .f32⟩
  | .local _ .vmem, ⟨17, _⟩ => ⟨S1x512x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![2, 8, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S2x4096x1024_S8192x1024 : S2x4096x1024.ShapeCasts S8192x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x3072_S2x4096x3072 : S8192x3072.ShapeCasts S2x4096x3072
  slices_S2x4096x3072_S2x4096x1024_0_0_0 : S2x4096x3072.Slices ![0, 0, 0] S2x4096x1024
  slices_S2x4096x3072_S2x4096x1024_0_0_1024 : S2x4096x3072.Slices ![0, 0, 1024] S2x4096x1024
  slices_S2x4096x3072_S2x4096x1024_0_0_2048 : S2x4096x3072.Slices ![0, 0, 2048] S2x4096x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  transposes_S512x1024_p1_0_S1024x512 : S512x1024.Transposes [1, 0] S1024x512
  dot_S1024x1024_S1024x1024_S1024x1024_1_0_0_1_n_n_wf : DotDims.WF S1024x1024 S1024x1024 S1024x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .f32 = 32 ∨ (Rect.block (s := S1024x3072) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x3072.size a
  hwx0_3 : ∀ i : grid0.Coords, EltTy.bits .f32 = 32 ∨ (Rect.block (s := S8192x3072) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S2x4096x1024.size a
  hwx1_0 : ∀ i : grid1.Coords, EltTy.bits .f32 = 32 ∨ (Rect.block (s := S2x4096x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S2x4096x1024.size a
  hwx1_1 : ∀ i : grid1.Coords, EltTy.bits .f32 = 32 ∨ (Rect.block (s := S2x4096x1024) S1x512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S2x4096x1024.size a
  hwx1_2 : ∀ i : grid1.Coords, EltTy.bits .f32 = 32 ∨ (Rect.block (s := S2x4096x1024) S1x512x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512x512.size a ≤ S2x1x4096x4096.size a
  hwx1_3 : ∀ i : grid1.Coords, EltTy.bits .f32 = 32 ∨ (Rect.block (s := S2x1x4096x4096) S1x1x512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S2x4096x1024.size a
  hwx1_4 : ∀ i : grid1.Coords, EltTy.bits .f32 = 32 ∨ (Rect.block (s := S2x4096x1024) S1x512x1024.size (cc1_transform_4 i) (hinb1_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x1x512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x4096x1024 : Shape := ⟨3, ![2, 4096, 1024]⟩
abbrev S2x1x4096x4096 : Shape := ⟨4, ![2, 1, 4096, 4096]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S2x4096x4096 : Shape := ⟨3, ![2, 4096, 4096]⟩

abbrev nBuf : Space → Nat
  | .hbm => 44
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x1x4096x4096, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S2x4096x1024, .f32⟩
  | .hbm, ⟨9, _⟩ => ⟨S1x1x1024, .f32⟩
  | .hbm, ⟨10, _⟩ => ⟨S2x4096x1024, .f32⟩
  | .hbm, ⟨11, _⟩ => ⟨S2x4096x1024, .f32⟩
  | .hbm, ⟨12, _⟩ => ⟨S2x4096x1024, .f32⟩
  | .hbm, ⟨13, _⟩ => ⟨S1x1x1024, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S1x1x1024, .f32⟩
  | .hbm, ⟨18, _⟩ => ⟨S2x4096x1024, .f32⟩
  | .hbm, ⟨19, _⟩ => ⟨S2x4096x1024, .f32⟩
  | .hbm, ⟨20, _⟩ => ⟨S_, .f32⟩
  | .hbm, ⟨21, _⟩ => ⟨S_, .f32⟩
  | .hbm, ⟨22, _⟩ => ⟨S2x4096x4096, .f32⟩
  | .hbm, ⟨23, _⟩ => ⟨S2x4096x4096, .f32⟩
  | .hbm, ⟨24, _⟩ => ⟨S2x4096x4096, .f32⟩
  | .hbm, ⟨25, _⟩ => ⟨S2x4096x4096, .f32⟩
  | .hbm, ⟨26, _⟩ => ⟨S2x4096x4096, .f32⟩
  | .hbm, ⟨27, _⟩ => ⟨S_, .f32⟩
  | .hbm, ⟨28, _⟩ => ⟨S2x4096x4096, .f32⟩
  | .hbm, ⟨29, _⟩ => ⟨S2x4096x4096, .f32⟩
  | .hbm, ⟨30, _⟩ => ⟨S_, .f32⟩
  | .hbm, ⟨31, _⟩ => ⟨S2x4096x4096, .f32⟩
  | .hbm, ⟨32, _⟩ => ⟨S2x4096x4096, .f32⟩
  | .hbm, ⟨33, _⟩ => ⟨S2x4096x4096, .f32⟩
  | .hbm, ⟨34, _⟩ => ⟨S2x4096x4096, .f32⟩
  | .hbm, ⟨35, _⟩ => ⟨S2x4096x4096, .f32⟩
  | .hbm, ⟨36, _⟩ => ⟨S2x4096x4096, .f32⟩
  | .hbm, ⟨37, _⟩ => ⟨S_, .f32⟩
  | .hbm, ⟨38, _⟩ => ⟨S2x4096x4096, .f32⟩
  | .hbm, ⟨39, _⟩ => ⟨S2x4096x4096, .f32⟩
  | .hbm, ⟨40, _⟩ => ⟨S_, .f32⟩
  | .hbm, ⟨41, _⟩ => ⟨S2x4096x4096, .f32⟩
  | .hbm, ⟨42, _⟩ => ⟨S2x4096x4096, .f32⟩
  | .hbm, ⟨43, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x4096x1024_0_1_2 : S1x1x1024.BroadcastsInDim S2x4096x1024 (![0, 1, 2] : Fin 3 → Fin S2x4096x1024.rank)
  bcast_S_S2x4096x4096 : S_.BroadcastsInDim S2x4096x4096 (![] : Fin 0 → Fin S2x4096x4096.rank)
  shapeCasts_S2x1x4096x4096_S2x4096x4096 : S2x1x4096x4096.ShapeCasts S2x4096x4096
  dot_S2x4096x1024_S1024x1024_S2x4096x1024_2_1_01_0_n_n_wf : DotDims.WF S2x4096x1024 S1024x1024 S2x4096x1024 [2] [1] [0, 1] [0] [] []
  dot_S2x4096x1024_S2x4096x1024_S2x4096x4096_2_2_1_1_0_0_wf : DotDims.WF S2x4096x1024 S2x4096x1024 S2x4096x4096 [2] [2] [1] [1] [0] [0]
  dot_S2x4096x4096_S2x4096x1024_S2x4096x1024_2_1_1_2_0_0_wf : DotDims.WF S2x4096x4096 S2x4096x1024 S2x4096x1024 [2] [1] [1] [2] [0] [0]

variable [Facts₀]

def dot_S2x4096x1024_S1024x1024_S2x4096x1024_2_1_01_0_n_n : DotDims S2x4096x1024 S1024x1024 S2x4096x1024 where
  lhsContracting := [2]
  rhsContracting := [1]
  lhsNonContracting := [0, 1]
  rhsNonContracting := [0]
  lhsBatch := []
  rhsBatch := []
  wf := dot_S2x4096x1024_S1024x1024_S2x4096x1024_2_1_01_0_n_n_wf
def dot_S2x4096x1024_S2x4096x1024_S2x4096x4096_2_2_1_1_0_0 : DotDims S2x4096x1024 S2x4096x1024 S2x4096x4096 where
  lhsContracting := [2]
  rhsContracting := [2]
  lhsNonContracting := [1]
  rhsNonContracting := [1]
  lhsBatch := [0]
  rhsBatch := [0]
  wf := dot_S2x4096x1024_S2x4096x1024_S2x4096x4096_2_2_1_1_0_0_wf
def dot_S2x4096x4096_S2x4096x1024_S2x4096x1024_2_1_1_2_0_0 : DotDims S2x4096x4096 S2x4096x1024 S2x4096x1024 where
  lhsContracting := [2]
  rhsContracting := [1]
  lhsNonContracting := [1]
  rhsNonContracting := [2]
  lhsBatch := [0]
  rhsBatch := [0]
  wf := dot_S2x4096x4096_S2x4096x1024_S2x4096x1024_2_1_1_2_0_0_wf

class Facts : Prop extends Facts₀ where

variable [Facts]
-- ==== Proof.K.ProjectionCall.lean ====
/-
  The first call: the fused projection  y = x · Wcat + bcat  on a grid of 8 × 3 points. At point (i, j) the body reads
  the 1024 rows i of x [8192, 1024], the 1024 columns j of Wcat [1024, 3072] and of the bias row [1, 3072], and stores
  one whole 1024 × 1024 block of y: the matrix product into a zero accumulator plus the bias row copied into every row
  (the body's one payload). Stated for any contents V of the buffers when the call is entered, and for any float
  instance: what the body leaves in the output block, the body's triple, and the data the launch theorems ask for —
  after each point every input block is unchanged and the output block is that payload of the three input blocks.
-/
import proofs.«174353_j19756849562253_1_alg».proof.Proof.Gen.Kernel.Launch
import proofs.«174353_j19756849562253_1_alg».proof.Proof.Gen.Kernel.Skeleton
import proofs.«174353_j19756849562253_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is checked structurally, one step per coordinate of a long axis
set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the call is entered
variable (V : (c : Dev nD) → (b : Ref sig .tc) → Buf (Elt F) ((c : Thread nD τ).loc b))

/-! ## The blocks the call reads -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every point, whether the point fetches it or
    keeps the block of the point before (then the block's index has not moved); for any proof data over these arrays whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array at every point, whether the point fetches it or
    keeps the block of the point before (then the block's index has not moved); for any proof data over these arrays whose
    body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the array at every point, whether the point fetches it or
    keeps the block of the point before (then the block's index has not moved); for any proof data over these arrays whose
    body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

/-- The whole 1024 × 1024 block, and the whole 1 × 1024 bias row: the only rectangles the body touches. -/
abbrev rBlock : Rect S1024x1024 := Rect.unit (s := S1024x1024) ![0, 0] S1024x1024.size inb_S1024x1024_S1024x1024_0_0
abbrev rRow : Rect S1x1024 := Rect.unit (s := S1x1024) ![0, 0] S1x1024.size inb_S1x1024_S1x1024_0_0

/-- The output block after the body, from the three input blocks: its one store, of the product-plus-bias payload. -/
def out0_3 (x0 : Vec F S1024x1024 .f32) (x1 : Vec F S1024x1024 .f32) (x2 : Vec F S1x1024 .f32) : Vec F S1024x1024 .f32 :=
  View.canon [⟨rBlock, k0_pay1 (View.ld x0 rBlock) (View.ld x1 rBlock) (View.ld x2 rRow)⟩]

/-- That one store covers the block. -/
theorem cover0_3 (p0 : Vec F S1024x1024 .f32) (y : S1024x1024.Idx) :
    ∃ pc ∈ ([⟨rBlock, p0⟩] : List (View.Piece (Elt F) S1024x1024 .f32)), y ∈ pc.1.set :=
  View.cover_of_tiled [⟨rBlock, p0⟩] S1024x1024.size (by rfl) y

/-! ## The body's triple -/

set_option maxHeartbeats 1000000 in
/-- On whole staging buffers, the inputs' at contents x0, x1, x2 and the output's at anything, the body runs to the end,
    leaves the inputs as they were and the output block at out0_3 of them. -/
theorem sound_kernel0 (c : Dev nD) (E : Set ℕ) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1024 .f32) (harg4 : arg4.IsWhole)
    (arg5 : Memref sig .tc .vmem S1024x1024 .f32) (harg5 : arg5.IsWhole)
    (x0 : Vec F S1024x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The data the launch theorems ask for -/

/-- For the first call on core c: the arrays as the call finds them; after the body at point t each input's buffer at its
    block and the output's at out0_3 of the input blocks; beside them only the buffers and the generator register the body
    never touches; nothing owed; whole shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body at a point of the grid -/

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; everything else passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the launch theorems, at every point. -/
theorem body_obligation0 (c : Dev nD) : BodyObligation (dat0 (F := F) V c) (defs₀ (F := F)) Variants.none () Set.univ := fun t => by
  rw [bigSep_W0, bigSep_W0]
  exact sound_body0 V c t

end Cert.Kernel.Calls

end
-- ==== Proof.K.AttentionShared.lean ====
/-
  The second call: sigmoid attention on a grid of 2 × 8 × 8 points (batch, query tile, key tile). At point (b, qi, ki)
  the body reads 512 query rows, 512 key rows, 512 value rows and a 512 × 512 tile of the mask, and ADDS the tile's
  contribution to the 512 × 1024 output block of (b, qi): at ki = 0 it first stores zeros into the block. The block stays
  in its staging buffer over the eight key tiles and is written back after the last.
  Here: what the two ways through the body share — the blocks the call reads, that an input's staging buffer holds its
  block at every point, the branch condition decided over the grid (it holds exactly at the points ≡ 0 mod 8), and the
  staging memrefs as the launch passes them.
-/
import proofs.«174353_j19756849562253_1_alg».proof.Proof.Gen.Kernel.Launch
import proofs.«174353_j19756849562253_1_alg».proof.Proof.Gen.Kernel.Skeleton
import proofs.«174353_j19756849562253_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is checked structurally, one step per coordinate of a long axis
set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the call is entered
variable (V : (c : Dev nD) → (b : Ref sig .tc) → Buf (Elt F) ((c : Thread nD τ).loc b))

/-! ## The blocks the call reads -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every point, whether the point fetches it or
    keeps the block of the point before (then the block's index has not moved); for any proof data over these arrays whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the array at every point, whether the point fetches it or
    keeps the block of the point before (then the block's index has not moved); for any proof data over these arrays whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the array at every point, whether the point fetches it or
    keeps the block of the point before (then the block's index has not moved); for any proof data over these arrays whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block of the array at every point, whether the point fetches it or
    keeps the block of the point before (then the block's index has not moved); for any proof data over these arrays whose
    body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The branch -/

/-- The body's one branch condition, from the grid coordinates: the key-tile coordinate is zero. -/
abbrev cond1_0 (i : grid1.Coords) : Prop :=
  (Scalar.cmpi .ne (Scalar.extui (Scalar.cmpi .eq (BitVec.ofNat 32 (i 2).val) 0#32)) 0#32) = 1#1
/-- It holds exactly at the first key tile of each (batch, query tile): the points ≡ 0 mod 8. -/
theorem hcond1_0 : ∀ t : Fin cfg1.N, cond1_0 (grid1.coords t) ↔ t.val % 8 = 0 :=
  (by decide +kernel : ∀ t : Fin grid1.N, cond1_0 (grid1.coords t) ↔ t.val % 8 = 0)

/-! ## The staging memrefs -/

/-- One staging buffer of the output window, through which its contents are stated (any would do). -/
abbrev VO1_4 : View sig .tc .vmem S1x512x1024 .f32 := (Memref.whole cc1_stg4_0 : Memref sig .tc .vmem S1x512x1024 .f32).view
/-- Each window's current staging memref at point t, as the launch passes it, and that it is a whole buffer. -/
abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1024 .f32 := win1_4.stage (cfg1.slots t 4)
abbrev hs1_4 (t : Fin cfg1.N) : (ms1_4 t).IsWhole := hstage1_4 ((cfg1.slots t 4).cast nbuf1_4)

end Cert.Kernel.Calls

end
-- ==== Proof.K.AttentionFirstTile.lean ====
/-
  The second call's body run whole, at a point of the first key tile (the branch taken): zeros are stored into the output block, read back, and the tile's contribution added and stored.
  The stores the run leaves in the output block's staging buffer are found by the run itself (the list is the
  witness); the inputs' buffers end as they were.
-/
import proofs.«174353_j19756849562253_1_alg».proof.Proof.K.AttentionShared

-- membership of an index in a rectangle of these extents is checked structurally, one step per coordinate of a long axis
set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: finishing the definition walks it past the default budget)
set_option maxHeartbeats 1000000 in
noncomputable def kernelRun1_A (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S1x512x1024 .f32) (harg5 : arg5.IsWhole)
    (arg6 : Memref sig .tc .vmem S1x1x512x512 .f32) (harg6 : arg6.IsWhole) (arg7 : Memref sig .tc .vmem S1x512x1024 .f32) (harg7 : arg7.IsWhole)
    (hc0 : cond1_0 i)
    (x0 : Vec F S1x512x1024 .f32) (x1 : Vec F S1x512x1024 .f32) (x2 : Vec F S1x512x1024 .f32) (x3 : Vec F S1x1x512x512 .f32) :
    { L4 : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (∃ f, arg7.view.loc (c : Thread nD τ) ↦[arg7.view.set]{fullShare} arg7.view.writes (Elt F) f L4)) -∗ K ⟨⟩))
          ⊢ wp frame (wpE (defs₀ (F := F)) Variants.none c none) E (cc1__attn_kernel i arg3 harg3 arg4 harg4 arg5 harg5 arg6 harg6 arg7 harg7) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.Calls

end
-- ==== Proof.K.AttentionLaterTile.lean ====
/-
  The second call's body run whole, at a point of a later key tile (the branch not taken): the output block, at the running contents xo4, is read and the tile's contribution added and stored.
  The stores the run leaves in the output block's staging buffer are found by the run itself (the list is the
  witness); the inputs' buffers end as they were.
-/
import proofs.«174353_j19756849562253_1_alg».proof.Proof.K.AttentionFirstTile

-- membership of an index in a rectangle of these extents is checked structurally, one step per coordinate of a long axis
set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: finishing the definition walks it past the default budget)
set_option maxHeartbeats 1000000 in
noncomputable def kernelRun1_B (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S1x512x1024 .f32) (harg5 : arg5.IsWhole)
    (arg6 : Memref sig .tc .vmem S1x1x512x512 .f32) (harg6 : arg6.IsWhole) (arg7 : Memref sig .tc .vmem S1x512x1024 .f32) (harg7 : arg7.IsWhole)
    (hc0 : ¬cond1_0 i)
    (x0 : Vec F S1x512x1024 .f32) (x1 : Vec F S1x512x1024 .f32) (x2 : Vec F S1x512x1024 .f32) (x3 : Vec F S1x1x512x512 .f32) (xo4 : Vec F S1x512x1024 .f32) :
    { L4 : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xo4
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (∃ f, arg7.view.loc (c : Thread nD τ) ↦[arg7.view.set]{fullShare} arg7.view.writes (Elt F) f L4)) -∗ K ⟨⟩))
          ⊢ wp frame (wpE (defs₀ (F := F)) Variants.none c none) E (cc1__attn_kernel i arg3 harg3 arg4 harg4 arg5 harg5 arg6 harg6 arg7 harg7) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.Calls

end
-- ==== Proof.K.AttentionCall.lean ====
/-
  The second call, continued: what each way through the body leaves in the output block, the ACCUMULATION over the key
  tiles point by point, the data the launch theorems ask for, and the body's obligation at every point.
  After point t the output block's staging buffer holds: at a first key tile (t ≡ 0 mod 8) what the reset-and-add run
  leaves; at a later one what the add run leaves over what point t − 1 left — the buffer is not written back between
  (it is written back only after the points ≡ 7 mod 8), so the running sum is still there.
-/
import proofs.«174353_j19756849562253_1_alg».proof.Proof.K.AttentionLaterTile

-- membership of an index in a rectangle of these extents is checked structurally, one step per coordinate of a long axis
set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the call is entered
variable (V : (c : Dev nD) → (b : Ref sig .tc) → Buf (Elt F) ((c : Thread nD τ).loc b))

/-! ## What each case leaves in the output block -/

/-- At a first key tile the run's stores (the zeros, then the sum) cover the block. -/
theorem cover1_A_4 (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S1x512x1024 .f32) (harg5 : arg5.IsWhole)
    (arg6 : Memref sig .tc .vmem S1x1x512x512 .f32) (harg6 : arg6.IsWhole) (arg7 : Memref sig .tc .vmem S1x512x1024 .f32) (harg7 : arg7.IsWhole)
    (hc0 : cond1_0 i) (x0 : Vec F S1x512x1024 .f32) (x1 : Vec F S1x512x1024 .f32) (x2 : Vec F S1x512x1024 .f32) (x3 : Vec F S1x1x512x512 .f32) (y : S1x512x1024.Idx) :
    ∃ pc ∈ (kernelRun1_A c i arg3 harg3 arg4 harg4 arg5 harg5 arg6 harg6 arg7 harg7 hc0 x0 x1 x2 x3).1, y ∈ pc.1.set :=
  View.cover_of_tiledL (kernelRun1_A c i arg3 harg3 arg4 harg4 arg5 harg5 arg6 harg6 arg7 harg7 hc0 x0 x1 x2 x3).1 S1x512x1024.size (by sl_kernel_rfl) y

/-- What a first key tile leaves in the output block: its stores read back. -/
def out1_A_4 (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S1x512x1024 .f32) (harg5 : arg5.IsWhole)
    (arg6 : Memref sig .tc .vmem S1x1x512x512 .f32) (harg6 : arg6.IsWhole) (arg7 : Memref sig .tc .vmem S1x512x1024 .f32) (harg7 : arg7.IsWhole)
    (hc0 : cond1_0 i) (x0 : Vec F S1x512x1024 .f32) (x1 : Vec F S1x512x1024 .f32) (x2 : Vec F S1x512x1024 .f32) (x3 : Vec F S1x1x512x512 .f32) : Vec F S1x512x1024 .f32 :=
  VO1_4.read (Elt F) (VO1_4.writes (Elt F) VO1_4.junk (kernelRun1_A c i arg3 harg3 arg4 harg4 arg5 harg5 arg6 harg6 arg7 harg7 hc0 x0 x1 x2 x3).1)

/-- At a later key tile the run's one store covers the block. -/
theorem cover1_B_4 (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S1x512x1024 .f32) (harg5 : arg5.IsWhole)
    (arg6 : Memref sig .tc .vmem S1x1x512x512 .f32) (harg6 : arg6.IsWhole) (arg7 : Memref sig .tc .vmem S1x512x1024 .f32) (harg7 : arg7.IsWhole)
    (hc0 : ¬cond1_0 i) (x0 : Vec F S1x512x1024 .f32) (x1 : Vec F S1x512x1024 .f32) (x2 : Vec F S1x512x1024 .f32) (x3 : Vec F S1x1x512x512 .f32) (xo4 : Vec F S1x512x1024 .f32) (y : S1x512x1024.Idx) :
    ∃ pc ∈ (kernelRun1_B c i arg3 harg3 arg4 harg4 arg5 harg5 arg6 harg6 arg7 harg7 hc0 x0 x1 x2 x3 xo4).1, y ∈ pc.1.set :=
  View.cover_of_tiledL (kernelRun1_B c i arg3 harg3 arg4 harg4 arg5 harg5 arg6 harg6 arg7 harg7 hc0 x0 x1 x2 x3 xo4).1 S1x512x1024.size (by sl_kernel_rfl) y

/-- What a later key tile leaves in the output block, over the running contents xo4. -/
def out1_B_4 (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S1x512x1024 .f32) (harg5 : arg5.IsWhole)
    (arg6 : Memref sig .tc .vmem S1x1x512x512 .f32) (harg6 : arg6.IsWhole) (arg7 : Memref sig .tc .vmem S1x512x1024 .f32) (harg7 : arg7.IsWhole)
    (hc0 : ¬cond1_0 i) (x0 : Vec F S1x512x1024 .f32) (x1 : Vec F S1x512x1024 .f32) (x2 : Vec F S1x512x1024 .f32) (x3 : Vec F S1x1x512x512 .f32) (xo4 : Vec F S1x512x1024 .f32) : Vec F S1x512x1024 .f32 :=
  VO1_4.read (Elt F) (VO1_4.writes (Elt F) VO1_4.junk (kernelRun1_B c i arg3 harg3 arg4 harg4 arg5 harg5 arg6 harg6 arg7 harg7 hc0 x0 x1 x2 x3 xo4).1)

/-! ## The accumulation -/

/-- What the output block's staging buffer holds after the body at position n of the grid. -/
def outsAt1 (c : Dev nD) : (n : ℕ) → n < cfg1.N → Vec F S1x512x1024 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 8 = 0 then
      out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

/-- At a first key tile: that case's contents. -/
theorem outsAt1_A (c : Dev nD) (t : Fin cfg1.N) (h0 : t.val % 8 = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) (iblk1 V c 3 t) := by
  obtain ⟨n, hn⟩ := t
  cases n with
  | zero => exact rfl
  | succ n => exact (dif_pos h0).trans rfl

/-- At a later key tile: that case's contents, over what the point before left. -/
theorem outsAt1_B (c : Dev nD) (t : Fin cfg1.N) (h0 : ¬t.val % 8 = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The data the launch theorems ask for -/

/-- For the second call on core c: the arrays as the call finds them; after the body at point t each input's buffer at its
    block and the output's at the accumulation; beside them only what the body never touches; nothing owed; whole shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a later key tile the output block's staging buffer holds what the body left at the point before: the point is not
    the first, and the buffer was not written back between. -/
theorem before1_4_B (c : Dev nD) (t : Fin cfg1.N) (h0 : ¬t.val % 8 = 0) (d) :
    (dat1 V c).before 4 t d = (outsAt1 V c (t.val - 1) (Nat.lt_of_le_of_lt (Nat.sub_le _ _) t.isLt)) := by
  have hN : t.val < 128 := lt_of_lt_of_eq t.isLt (show cfg1.N = 128 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body at a point of the grid -/

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
/-- The body at any point: the inputs' buffers hold their blocks; the point is at a first key tile or at a later one, and at
    a later one the output's buffer holds what the point before left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 128 := lt_of_lt_of_eq t.isLt (show cfg1.N = 128 from N_1)
  by_cases h0 : t.val % 8 = 0
  · rw [outsAt1_A V c t h0]
    unfold out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _)
  · rw [outsAt1_B V c t h0]
    simp only [before1_4_B V c t h0]
    unfold out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _)

/-- The body's obligation to the launch theorems, at every point. -/
theorem body_obligation1 (c : Dev nD) : BodyObligation (dat1 (F := F) V c) (defs₀ (F := F)) Variants.none () Set.univ := fun t => by
  rw [bigSep_W1, bigSep_W1]
  exact sound_body1 V c t

end Cert.Kernel.Calls

end
-- ==== Proof.K.MainRun.lean ====
/-
  @main from the launch to the return: a stretch of host operations (reshape, three transposes, two concatenations,
  reshape), the projection call, a second stretch (reshape, three slices), the attention call.
  The contents of core c's unscoped buffers at each of the five boundaries are a fold from the launch memory: a host
  stretch applies its operations; a call leaves each of its windows' arrays at what its write-backs leave (an input array
  as it was) and every other buffer as it was. No host operation and no call writes an argument array, so each argument
  ends as launched; the result array main_v12 ends at what the attention call's write-backs leave.
  Then the two calls as segments over "every unscoped buffer at the boundary's contents, the generator register at some
  state, nothing owed", @main as the run of the four segments, and the launch: every weakly fair execution terminates
  without a fault in a state whose unscoped buffers hold the last boundary's contents.
-/
import proofs.«174353_j19756849562253_1_alg».proof.Proof.K.ProjectionCall
import proofs.«174353_j19756849562253_1_alg».proof.Proof.K.AttentionCall
import proofs.«174353_j19756849562253_1_alg».proof.Proof.Gen.Kernel.Regions

-- membership of an index in a rectangle of these extents is checked structurally, one step per coordinate of a long axis
set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev memLaunch : Dev nD → Valuation τ sig (Elt F) := fun c b => (s₀ m ρ).mem ((c : Dev nD), b)
/-- After the first host stretch: what the projection call is entered with. -/
abbrev memIn0 : Dev nD → Valuation τ sig (Elt F) := fun c => StableHlo.after hostOps0 (memLaunch m ρ c)
abbrev bufIn0 : (c : Dev nD) → (b : Ref sig .tc) → Buf (Elt F) ((c : Thread nD τ).loc b) := fun c b => memIn0 m ρ c b
/-- After the projection call. -/
def memOut0 (c : Dev nD) : Valuation τ sig (Elt F) :=
  Pipeline.withArrays spec0 c (memIn0 m ρ c) fun w => (dat0 (bufIn0 m ρ) c).arrAt w cfg0.N
theorem memOut0_arr (c : Dev nD) (w : Fin cfg0.W) :
    memOut0 m ρ c (Proc.devRef .tc (Pipeline.arrRef spec0 w)) = (dat0 (bufIn0 m ρ) c).arrAt w cfg0.N := by
  unfold memOut0; exact Pipeline.withArrays_arr spec0 launch0.win.arr_inj c _ _ w
theorem memOut0_of_ne (c : Dev nD) (b : Ref sig .tc) (hb : ∀ w, Pipeline.arrRef spec0 w ≠ b) :
    memOut0 m ρ c (Proc.devRef .tc b) = memIn0 m ρ c (Proc.devRef .tc b) := by
  unfold memOut0; exact Pipeline.withArrays_of_ne spec0 c _ _ b hb
abbrev bufOut0 : (c : Dev nD) → (b : Ref sig .tc) → Buf (Elt F) ((c : Thread nD τ).loc b) := fun c b => memOut0 m ρ c b
theorem hF0 (c : Dev nD) (w : Fin cfg0.W) : (dat0 (bufIn0 m ρ) c).arrAt w cfg0.N = bufOut0 m ρ c (Pipeline.arrRef spec0 w) :=
  (memOut0_arr m ρ c w).symm
theorem hrest0 (c : Dev nD) : ∀ b, b ∉ Finset.univ.image (Pipeline.arrRef spec0) → bufOut0 m ρ c b = bufIn0 m ρ c b :=
  fun b hb => memOut0_of_ne m ρ c b fun w e => hb (Finset.mem_image.mpr ⟨w, Finset.mem_univ _, e⟩)

/-- After the second host stretch: what the attention call is entered with. -/
abbrev memIn1 : Dev nD → Valuation τ sig (Elt F) := fun c => StableHlo.after hostOps1 (memOut0 m ρ c)
abbrev bufIn1 : (c : Dev nD) → (b : Ref sig .tc) → Buf (Elt F) ((c : Thread nD τ).loc b) := fun c b => memIn1 m ρ c b
/-- After the attention call: the end. -/
def memEnd (c : Dev nD) : Valuation τ sig (Elt F) :=
  Pipeline.withArrays spec1 c (memIn1 m ρ c) fun w => (dat1 (bufIn1 m ρ) c).arrAt w cfg1.N
theorem memEnd_arr (c : Dev nD) (w : Fin cfg1.W) :
    memEnd m ρ c (Proc.devRef .tc (Pipeline.arrRef spec1 w)) = (dat1 (bufIn1 m ρ) c).arrAt w cfg1.N := by
  unfold memEnd; exact Pipeline.withArrays_arr spec1 launch1.win.arr_inj c _ _ w
theorem memEnd_of_ne (c : Dev nD) (b : Ref sig .tc) (hb : ∀ w, Pipeline.arrRef spec1 w ≠ b) :
    memEnd m ρ c (Proc.devRef .tc b) = memIn1 m ρ c (Proc.devRef .tc b) := by
  unfold memEnd; exact Pipeline.withArrays_of_ne spec1 c _ _ b hb
abbrev bufEnd : (c : Dev nD) → (b : Ref sig .tc) → Buf (Elt F) ((c : Thread nD τ).loc b) := fun c b => memEnd m ρ c b
theorem hF1 (c : Dev nD) (w : Fin cfg1.W) : (dat1 (bufIn1 m ρ) c).arrAt w cfg1.N = bufEnd m ρ c (Pipeline.arrRef spec1 w) :=
  (memEnd_arr m ρ c w).symm
theorem hrest1 (c : Dev nD) : ∀ b, b ∉ Finset.univ.image (Pipeline.arrRef spec1) → bufEnd m ρ c b = bufIn1 m ρ c b :=
  fun b hb => memEnd_of_ne m ρ c b fun w e => hb (Finset.mem_image.mpr ⟨w, Finset.mem_univ _, e⟩)

/-! ## The arguments end as launched, the result at the attention call's write-backs -/

/-- A buffer that no host operation writes and that is no window's array of either call ends as launched. -/
theorem untouched (c : Dev nD) (r : Ref sig .tc) (h0 : r ∉ hostOps0_W) (h1 : r ∉ hostOps1_W)
    (hw0 : ∀ w, Pipeline.arrRef spec0 w ≠ r) (hw1 : ∀ w, Pipeline.arrRef spec1 w ≠ r) :
    memEnd m ρ c (Proc.devRef .tc r) = m ((c : Thread nD τ).loc r) :=
  calc memEnd m ρ c (Proc.devRef .tc r)
    _ = memIn1 m ρ c (Proc.devRef .tc r) := memEnd_of_ne m ρ c r hw1
    _ = memOut0 m ρ c (Proc.devRef .tc r) := StableHlo.after_of_writes_sub hostOps1 _ hostOps1_writes h1
    _ = memIn0 m ρ c (Proc.devRef .tc r) := memOut0_of_ne m ρ c r hw0
    _ = memLaunch m ρ c (Proc.devRef .tc r) := StableHlo.after_of_writes_sub hostOps0 _ hostOps0_writes h0
    _ = m ((c : Thread nD τ).loc r) := rfl

theorem end_main_arg0 (c : Dev nD) : memEnd m ρ c (Proc.devRef .tc main_arg0) = m ((c : Thread nD τ).loc main_arg0) :=
  untouched m ρ c main_arg0 (by decide) (by decide) (by decide) (by decide)
theorem end_main_arg2 (c : Dev nD) : memEnd m ρ c (Proc.devRef .tc main_arg2) = m ((c : Thread nD τ).loc main_arg2) :=
  untouched m ρ c main_arg2 (by decide) (by decide) (by decide) (by decide)
theorem end_main_arg3 (c : Dev nD) : memEnd m ρ c (Proc.devRef .tc main_arg3) = m ((c : Thread nD τ).loc main_arg3) :=
  untouched m ρ c main_arg3 (by decide) (by decide) (by decide) (by decide)
theorem end_main_arg4 (c : Dev nD) : memEnd m ρ c (Proc.devRef .tc main_arg4) = m ((c : Thread nD τ).loc main_arg4) :=
  untouched m ρ c main_arg4 (by decide) (by decide) (by decide) (by decide)
theorem end_main_arg5 (c : Dev nD) : memEnd m ρ c (Proc.devRef .tc main_arg5) = m ((c : Thread nD τ).loc main_arg5) :=
  untouched m ρ c main_arg5 (by decide) (by decide) (by decide) (by decide)
theorem end_main_arg6 (c : Dev nD) : memEnd m ρ c (Proc.devRef .tc main_arg6) = m ((c : Thread nD τ).loc main_arg6) :=
  untouched m ρ c main_arg6 (by decide) (by decide) (by decide) (by decide)
theorem end_main_arg7 (c : Dev nD) : memEnd m ρ c (Proc.devRef .tc main_arg7) = m ((c : Thread nD τ).loc main_arg7) :=
  untouched m ρ c main_arg7 (by decide) (by decide) (by decide) (by decide)
/-- The mask is an input array of the attention call (its window 3): a call leaves an input array as it was. -/
theorem end_main_arg1 (c : Dev nD) : memEnd m ρ c (Proc.devRef .tc main_arg1) = m ((c : Thread nD τ).loc main_arg1) :=
  calc memEnd m ρ c (Proc.devRef .tc main_arg1)
    _ = memIn1 m ρ c (Proc.devRef .tc main_arg1) := (memEnd_arr m ρ c 3).trans (((dat1 (bufIn1 m ρ) c).arrAt_in 3 rfl _).trans (A_eq1 (bufIn1 m ρ) c 3))
    _ = memOut0 m ρ c (Proc.devRef .tc main_arg1) := StableHlo.after_of_writes_sub hostOps1 _ hostOps1_writes (by decide)
    _ = memIn0 m ρ c (Proc.devRef .tc main_arg1) := memOut0_of_ne m ρ c main_arg1 (by decide)
    _ = memLaunch m ρ c (Proc.devRef .tc main_arg1) := StableHlo.after_of_writes_sub hostOps0 _ hostOps0_writes (by decide)
    _ = m ((c : Thread nD τ).loc main_arg1) := rfl
/-- The result array is the attention call's output window's array. -/
theorem end_main_v12 (c : Dev nD) : memEnd m ρ c (Proc.devRef .tc main_v12) = (dat1 (bufIn1 m ρ) c).arrAt 4 cfg1.N :=
  memEnd_arr m ρ c 4

/-! ## The proof data of both calls, and what rides beside the buffers -/

/-- No call has a prefetched table. -/
abbrev noTables : (p : Fin 2) → (pcfgs (F := F) p).Adm := fun p => (cfgs p).toPCfg_adm
/-- Each call's proof data at the contents the call is entered with. -/
def pdats : (p : Fin 2) → (c : Dev nD) → Dat τ (Elt F) Unit ℕ (UR sig nD τ) ℕ (Pipeline.pin (pcfgs (F := F)) noTables p) c
  | ⟨0, _⟩ => fun c => dat0 (bufIn0 m ρ) c
  | ⟨1, _⟩ => fun c => dat1 (bufIn1 m ρ) c
abbrev 𝒱₀ : Variants := Variants.none
/-- No core waits for another: no level is assigned. -/
abbrev L : GSem nD τ sig → Finset Unit := fun _ => ∅
abbrev lv : GSem nD τ sig → Unit → ℕ := fun _ _ => 0
/-- Beside the buffers, through every segment: the core's generator register at some state, and that it owes nothing. -/
abbrev R (c : Dev nD) : sProp 𝕄 := iprop((∃ r, prngReg c r) ∗ ∃ W, owes (c : Thread nD τ) (0 : CellTallies nD τ sig Unit) W)
/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore buffer is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the "owes nothing": every unscoped buffer at the end contents, the register at some state. -/
abbrev Tₙ (c : Dev nD) : sProp 𝕄 := iprop(StableHlo.held (c : Thread nD τ) (Pipeline.ucRefs τ sig) (memEnd m ρ c) ∗ ∃ r, prngReg c r)

/-! ## The calls as segments -/

-- (the library's lemmas are stated over the pinned configuration; unifying with it must unfold plain definitions in a type)
set_option backward.isDefEq.respectTransparency.types false in
/-- Call 0 as a segment of @main: entered with every unscoped buffer at its contents before the call, left with them at
    the contents after it. Its windows' arrays are split out of the unscoped buffers on entry and put back on exit at what
    the write-backs leave; the generator register goes into the call's invariant and comes back; nothing is owed and the
    kernel has no semaphore of its own. -/
def call0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (bufIn0 m ρ) c).loose
  hwaits := Pipeline.hwaits_of_owed_zero _ _ _ _ L lv 0 fun _ _ => rfl
  pre c := iprop(StableHlo.held (c : Thread nD τ) (Pipeline.ucRefs τ sig) (memIn0 m ρ c) ∗ R c)
  post c := iprop(StableHlo.held (c : Thread nD τ) (Pipeline.ucRefs τ sig) (memOut0 m ρ c) ∗ R c)
  X c := iprop(∃ r, prngReg c r)
  Y c := iprop(∃ r, prngReg c r)
  Z c := Pipeline.unscopedRest (Ix := Unit) (Name := ℕ) (U := UR sig nD τ) (Lvl := ℕ) spec0 c (bufIn0 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (bufIn0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (bufIn0 m ρ c) (bufOut0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- (the library's lemmas are stated over the pinned configuration; unifying with it must unfold plain definitions in a type)
set_option backward.isDefEq.respectTransparency.types false in
/-- Call 1 as a segment of @main: entered with every unscoped buffer at its contents before the call, left with them at
    the contents after it. Its windows' arrays are split out of the unscoped buffers on entry and put back on exit at what
    the write-backs leave; the generator register goes into the call's invariant and comes back; nothing is owed and the
    kernel has no semaphore of its own. -/
def call1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (bufIn1 m ρ) c).loose
  hwaits := Pipeline.hwaits_of_owed_zero _ _ _ _ L lv 1 fun _ _ => rfl
  pre c := iprop(StableHlo.held (c : Thread nD τ) (Pipeline.ucRefs τ sig) (memIn1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (bufIn1 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (bufIn1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (bufIn1 m ρ c) (bufEnd m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four segments, and the launch -/

abbrev items : List (Pipeline.Seg (pcfgs (F := F)) noTables (pdats m ρ) () defs₀ 𝒱₀ L lv) :=
  [ .host (hseg hostOps0 hostOps0_sub hostOps0_fresh (memLaunch m ρ)),
    .region (call0 m ρ),
    .host (hseg hostOps1 hostOps1_sub hostOps1_fresh (memOut0 m ρ)),
    .region (call1 m ρ) ]
/-- @main is the run of the four segments. -/
theorem main_is_items (c : Dev nD) : main (F := F) c = Pipeline.Seg.run (items m ρ) := (main_chain c).trans (by chain_rfl)

-- (the launch theorem's implicit arguments are found by unifying its conclusion with this one, which must unfold plain definitions in a type)
set_option backward.isDefEq.respectTransparency.types false in
/-- THE RUN, at any float instance: from any memory with zero counters every weakly fair execution of @main terminates,
    nothing faulting, in a state where the result array holds what the attention call's write-backs leave and every
    argument array holds its launch contents. -/
theorem run_all : θ_run defs (onTc (τ := τ) (main (F := F))) ⟨m, fun _ => 0, ρ⟩ (fun r => ∀ c : Dev nD,
      r.2.mem ((c.tc : Thread nD τ).loc main_v12) = (dat1 (bufIn1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) noTables (pdats m ρ) () cellOf_inj emb₁ defs₀ 𝒱₀ L lv m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (memLaunch m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (memLaunch m ρ c)
        from Pipeline.unscopedBufs_held c (memLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = memEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (memEnd m ρ c) s')
      isplitl [Hh] <;> iassumption)
    (hQ := fun s h c =>
      ⟨(h c _ (mem_uc main_v12 (by decide))).trans (end_main_v12 m ρ c),
       (h c _ (mem_uc main_arg0 (by decide))).trans (end_main_arg0 m ρ c),
       (h c _ (mem_uc main_arg1 (by decide))).trans (end_main_arg1 m ρ c),
       (h c _ (mem_uc main_arg2 (by decide))).trans (end_main_arg2 m ρ c),
       (h c _ (mem_uc main_arg3 (by decide))).trans (end_main_arg3 m ρ c),
       (h c _ (mem_uc main_arg4 (by decide))).trans (end_main_arg4 m ρ c),
       (h c _ (mem_uc main_arg5 (by decide))).trans (end_main_arg5 m ρ c),
       (h c _ (mem_uc main_arg6 (by decide))).trans (end_main_arg6 m ρ c),
       (h c _ (mem_uc main_arg7 (by decide))).trans (end_main_arg7 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_all m ρ)

end Cert.Kernel.Calls

end
-- ==== Proof.KI.ProjectionCall.lean ====
/-
  The first call: the fused projection  y = x · Wcat + bcat  on a grid of 8 × 3 points. At point (i, j) the body reads
  the 1024 rows i of x [8192, 1024], the 1024 columns j of Wcat [1024, 3072] and of the bias row [1, 3072], and stores
  one whole 1024 × 1024 block of y: the matrix product into a zero accumulator plus the bias row copied into every row
  (the body's one payload). Stated for any contents V of the buffers when the call is entered, and for any float
  instance: what the body leaves in the output block, the body's triple, and the data the launch theorems ask for —
  after each point every input block is unchanged and the output block is that payload of the three input blocks.
-/
import proofs.«174353_j19756849562253_1_alg».proof.Proof.Gen.KernelIdeal.Launch
import proofs.«174353_j19756849562253_1_alg».proof.Proof.Gen.KernelIdeal.Skeleton
import proofs.«174353_j19756849562253_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is checked structurally, one step per coordinate of a long axis
set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the call is entered
variable (V : (c : Dev nD) → (b : Ref sig .tc) → Buf (Elt F) ((c : Thread nD τ).loc b))

/-! ## The blocks the call reads -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every point, whether the point fetches it or
    keeps the block of the point before (then the block's index has not moved); for any proof data over these arrays whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array at every point, whether the point fetches it or
    keeps the block of the point before (then the block's index has not moved); for any proof data over these arrays whose
    body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the array at every point, whether the point fetches it or
    keeps the block of the point before (then the block's index has not moved); for any proof data over these arrays whose
    body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

/-- The whole 1024 × 1024 block, and the whole 1 × 1024 bias row: the only rectangles the body touches. -/
abbrev rBlock : Rect S1024x1024 := Rect.unit (s := S1024x1024) ![0, 0] S1024x1024.size inb_S1024x1024_S1024x1024_0_0
abbrev rRow : Rect S1x1024 := Rect.unit (s := S1x1024) ![0, 0] S1x1024.size inb_S1x1024_S1x1024_0_0

/-- The output block after the body, from the three input blocks: its one store, of the product-plus-bias payload. -/
def out0_3 (x0 : Vec F S1024x1024 .f32) (x1 : Vec F S1024x1024 .f32) (x2 : Vec F S1x1024 .f32) : Vec F S1024x1024 .f32 :=
  View.canon [⟨rBlock, k0_pay1 (View.ld x0 rBlock) (View.ld x1 rBlock) (View.ld x2 rRow)⟩]

/-- That one store covers the block. -/
theorem cover0_3 (p0 : Vec F S1024x1024 .f32) (y : S1024x1024.Idx) :
    ∃ pc ∈ ([⟨rBlock, p0⟩] : List (View.Piece (Elt F) S1024x1024 .f32)), y ∈ pc.1.set :=
  View.cover_of_tiled [⟨rBlock, p0⟩] S1024x1024.size (by rfl) y

/-! ## The body's triple -/

set_option maxHeartbeats 1000000 in
/-- On whole staging buffers, the inputs' at contents x0, x1, x2 and the output's at anything, the body runs to the end,
    leaves the inputs as they were and the output block at out0_3 of them. -/
theorem sound_kernel0 (c : Dev nD) (E : Set ℕ) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1024 .f32) (harg4 : arg4.IsWhole)
    (arg5 : Memref sig .tc .vmem S1024x1024 .f32) (harg5 : arg5.IsWhole)
    (x0 : Vec F S1024x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The data the launch theorems ask for -/

/-- For the first call on core c: the arrays as the call finds them; after the body at point t each input's buffer at its
    block and the output's at out0_3 of the input blocks; beside them only the buffers and the generator register the body
    never touches; nothing owed; whole shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body at a point of the grid -/

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; everything else passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the launch theorems, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Calls

end
-- ==== Proof.KI.AttentionShared.lean ====
/-
  The second call: sigmoid attention on a grid of 2 × 8 × 8 points (batch, query tile, key tile). At point (b, qi, ki)
  the body reads 512 query rows, 512 key rows, 512 value rows and a 512 × 512 tile of the mask, and ADDS the tile's
  contribution to the 512 × 1024 output block of (b, qi): at ki = 0 it first stores zeros into the block. The block stays
  in its staging buffer over the eight key tiles and is written back after the last.
  Here: what the two ways through the body share — the blocks the call reads, that an input's staging buffer holds its
  block at every point, the branch condition decided over the grid (it holds exactly at the points ≡ 0 mod 8), and the
  staging memrefs as the launch passes them.
-/
import proofs.«174353_j19756849562253_1_alg».proof.Proof.Gen.KernelIdeal.Launch
import proofs.«174353_j19756849562253_1_alg».proof.Proof.Gen.KernelIdeal.Skeleton
import proofs.«174353_j19756849562253_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is checked structurally, one step per coordinate of a long axis
set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the call is entered
variable (V : (c : Dev nD) → (b : Ref sig .tc) → Buf (Elt F) ((c : Thread nD τ).loc b))

/-! ## The blocks the call reads -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every point, whether the point fetches it or
    keeps the block of the point before (then the block's index has not moved); for any proof data over these arrays whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the array at every point, whether the point fetches it or
    keeps the block of the point before (then the block's index has not moved); for any proof data over these arrays whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the array at every point, whether the point fetches it or
    keeps the block of the point before (then the block's index has not moved); for any proof data over these arrays whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block of the array at every point, whether the point fetches it or
    keeps the block of the point before (then the block's index has not moved); for any proof data over these arrays whose
    body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The branch -/

/-- The body's one branch condition, from the grid coordinates: the key-tile coordinate is zero. -/
abbrev cond1_0 (i : grid1.Coords) : Prop :=
  (Scalar.cmpi .ne (Scalar.extui (Scalar.cmpi .eq (BitVec.ofNat 32 (i 2).val) 0#32)) 0#32) = 1#1
/-- It holds exactly at the first key tile of each (batch, query tile): the points ≡ 0 mod 8. -/
theorem hcond1_0 : ∀ t : Fin cfg1.N, cond1_0 (grid1.coords t) ↔ t.val % 8 = 0 :=
  (by decide +kernel : ∀ t : Fin grid1.N, cond1_0 (grid1.coords t) ↔ t.val % 8 = 0)

/-! ## The staging memrefs -/

/-- One staging buffer of the output window, through which its contents are stated (any would do). -/
abbrev VO1_4 : View sig .tc .vmem S1x512x1024 .f32 := (Memref.whole cc1_stg4_0 : Memref sig .tc .vmem S1x512x1024 .f32).view
/-- Each window's current staging memref at point t, as the launch passes it, and that it is a whole buffer. -/
abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1024 .f32 := win1_4.stage (cfg1.slots t 4)
abbrev hs1_4 (t : Fin cfg1.N) : (ms1_4 t).IsWhole := hstage1_4 ((cfg1.slots t 4).cast nbuf1_4)

end Cert.KernelIdeal.Calls

end
-- ==== Proof.KI.AttentionFirstTile.lean ====
/-
  The second call's body run whole, at a point of the first key tile (the branch taken): zeros are stored into the output block, read back, and the tile's contribution added and stored.
  The stores the run leaves in the output block's staging buffer are found by the run itself (the list is the
  witness); the inputs' buffers end as they were.
-/
import proofs.«174353_j19756849562253_1_alg».proof.Proof.KI.AttentionShared

-- membership of an index in a rectangle of these extents is checked structurally, one step per coordinate of a long axis
set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: finishing the definition walks it past the default budget)
set_option maxHeartbeats 1000000 in
noncomputable def kernelRun1_A (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S1x512x1024 .f32) (harg5 : arg5.IsWhole)
    (arg6 : Memref sig .tc .vmem S1x1x512x512 .f32) (harg6 : arg6.IsWhole) (arg7 : Memref sig .tc .vmem S1x512x1024 .f32) (harg7 : arg7.IsWhole)
    (hc0 : cond1_0 i)
    (x0 : Vec F S1x512x1024 .f32) (x1 : Vec F S1x512x1024 .f32) (x2 : Vec F S1x512x1024 .f32) (x3 : Vec F S1x1x512x512 .f32) :
    { L4 : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (∃ f, arg7.view.loc (c : Thread nD τ) ↦[arg7.view.set]{fullShare} arg7.view.writes (Elt F) f L4)) -∗ K ⟨⟩))
          ⊢ wp frame (wpE (defs₀ (F := F)) Variants.none c none) E (cc1__attn_kernel i arg3 harg3 arg4 harg4 arg5 harg5 arg6 harg6 arg7 harg7) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Calls

end
-- ==== Proof.KI.AttentionLaterTile.lean ====
/-
  The second call's body run whole, at a point of a later key tile (the branch not taken): the output block, at the running contents xo4, is read and the tile's contribution added and stored.
  The stores the run leaves in the output block's staging buffer are found by the run itself (the list is the
  witness); the inputs' buffers end as they were.
-/
import proofs.«174353_j19756849562253_1_alg».proof.Proof.KI.AttentionFirstTile

-- membership of an index in a rectangle of these extents is checked structurally, one step per coordinate of a long axis
set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: finishing the definition walks it past the default budget)
set_option maxHeartbeats 1000000 in
noncomputable def kernelRun1_B (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S1x512x1024 .f32) (harg5 : arg5.IsWhole)
    (arg6 : Memref sig .tc .vmem S1x1x512x512 .f32) (harg6 : arg6.IsWhole) (arg7 : Memref sig .tc .vmem S1x512x1024 .f32) (harg7 : arg7.IsWhole)
    (hc0 : ¬cond1_0 i)
    (x0 : Vec F S1x512x1024 .f32) (x1 : Vec F S1x512x1024 .f32) (x2 : Vec F S1x512x1024 .f32) (x3 : Vec F S1x1x512x512 .f32) (xo4 : Vec F S1x512x1024 .f32) :
    { L4 : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xo4
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (∃ f, arg7.view.loc (c : Thread nD τ) ↦[arg7.view.set]{fullShare} arg7.view.writes (Elt F) f L4)) -∗ K ⟨⟩))
          ⊢ wp frame (wpE (defs₀ (F := F)) Variants.none c none) E (cc1__attn_kernel i arg3 harg3 arg4 harg4 arg5 harg5 arg6 harg6 arg7 harg7) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Calls

end
-- ==== Proof.KI.AttentionCall.lean ====
/-
  The second call, continued: what each way through the body leaves in the output block, the ACCUMULATION over the key
  tiles point by point, the data the launch theorems ask for, and the body's obligation at every point.
  After point t the output block's staging buffer holds: at a first key tile (t ≡ 0 mod 8) what the reset-and-add run
  leaves; at a later one what the add run leaves over what point t − 1 left — the buffer is not written back between
  (it is written back only after the points ≡ 7 mod 8), so the running sum is still there.
-/
import proofs.«174353_j19756849562253_1_alg».proof.Proof.KI.AttentionLaterTile

-- membership of an index in a rectangle of these extents is checked structurally, one step per coordinate of a long axis
set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the call is entered
variable (V : (c : Dev nD) → (b : Ref sig .tc) → Buf (Elt F) ((c : Thread nD τ).loc b))

/-! ## What each case leaves in the output block -/

/-- At a first key tile the run's stores (the zeros, then the sum) cover the block. -/
theorem cover1_A_4 (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S1x512x1024 .f32) (harg5 : arg5.IsWhole)
    (arg6 : Memref sig .tc .vmem S1x1x512x512 .f32) (harg6 : arg6.IsWhole) (arg7 : Memref sig .tc .vmem S1x512x1024 .f32) (harg7 : arg7.IsWhole)
    (hc0 : cond1_0 i) (x0 : Vec F S1x512x1024 .f32) (x1 : Vec F S1x512x1024 .f32) (x2 : Vec F S1x512x1024 .f32) (x3 : Vec F S1x1x512x512 .f32) (y : S1x512x1024.Idx) :
    ∃ pc ∈ (kernelRun1_A c i arg3 harg3 arg4 harg4 arg5 harg5 arg6 harg6 arg7 harg7 hc0 x0 x1 x2 x3).1, y ∈ pc.1.set :=
  View.cover_of_tiledL (kernelRun1_A c i arg3 harg3 arg4 harg4 arg5 harg5 arg6 harg6 arg7 harg7 hc0 x0 x1 x2 x3).1 S1x512x1024.size (by sl_kernel_rfl) y

/-- What a first key tile leaves in the output block: its stores read back. -/
def out1_A_4 (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S1x512x1024 .f32) (harg5 : arg5.IsWhole)
    (arg6 : Memref sig .tc .vmem S1x1x512x512 .f32) (harg6 : arg6.IsWhole) (arg7 : Memref sig .tc .vmem S1x512x1024 .f32) (harg7 : arg7.IsWhole)
    (hc0 : cond1_0 i) (x0 : Vec F S1x512x1024 .f32) (x1 : Vec F S1x512x1024 .f32) (x2 : Vec F S1x512x1024 .f32) (x3 : Vec F S1x1x512x512 .f32) : Vec F S1x512x1024 .f32 :=
  VO1_4.read (Elt F) (VO1_4.writes (Elt F) VO1_4.junk (kernelRun1_A c i arg3 harg3 arg4 harg4 arg5 harg5 arg6 harg6 arg7 harg7 hc0 x0 x1 x2 x3).1)

/-- At a later key tile the run's one store covers the block. -/
theorem cover1_B_4 (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S1x512x1024 .f32) (harg5 : arg5.IsWhole)
    (arg6 : Memref sig .tc .vmem S1x1x512x512 .f32) (harg6 : arg6.IsWhole) (arg7 : Memref sig .tc .vmem S1x512x1024 .f32) (harg7 : arg7.IsWhole)
    (hc0 : ¬cond1_0 i) (x0 : Vec F S1x512x1024 .f32) (x1 : Vec F S1x512x1024 .f32) (x2 : Vec F S1x512x1024 .f32) (x3 : Vec F S1x1x512x512 .f32) (xo4 : Vec F S1x512x1024 .f32) (y : S1x512x1024.Idx) :
    ∃ pc ∈ (kernelRun1_B c i arg3 harg3 arg4 harg4 arg5 harg5 arg6 harg6 arg7 harg7 hc0 x0 x1 x2 x3 xo4).1, y ∈ pc.1.set :=
  View.cover_of_tiledL (kernelRun1_B c i arg3 harg3 arg4 harg4 arg5 harg5 arg6 harg6 arg7 harg7 hc0 x0 x1 x2 x3 xo4).1 S1x512x1024.size (by sl_kernel_rfl) y

/-- What a later key tile leaves in the output block, over the running contents xo4. -/
def out1_B_4 (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S1x512x1024 .f32) (harg5 : arg5.IsWhole)
    (arg6 : Memref sig .tc .vmem S1x1x512x512 .f32) (harg6 : arg6.IsWhole) (arg7 : Memref sig .tc .vmem S1x512x1024 .f32) (harg7 : arg7.IsWhole)
    (hc0 : ¬cond1_0 i) (x0 : Vec F S1x512x1024 .f32) (x1 : Vec F S1x512x1024 .f32) (x2 : Vec F S1x512x1024 .f32) (x3 : Vec F S1x1x512x512 .f32) (xo4 : Vec F S1x512x1024 .f32) : Vec F S1x512x1024 .f32 :=
  VO1_4.read (Elt F) (VO1_4.writes (Elt F) VO1_4.junk (kernelRun1_B c i arg3 harg3 arg4 harg4 arg5 harg5 arg6 harg6 arg7 harg7 hc0 x0 x1 x2 x3 xo4).1)

/-! ## The accumulation -/

/-- What the output block's staging buffer holds after the body at position n of the grid. -/
def outsAt1 (c : Dev nD) : (n : ℕ) → n < cfg1.N → Vec F S1x512x1024 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 8 = 0 then
      out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

/-- At a first key tile: that case's contents. -/
theorem outsAt1_A (c : Dev nD) (t : Fin cfg1.N) (h0 : t.val % 8 = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) (iblk1 V c 3 t) := by
  obtain ⟨n, hn⟩ := t
  cases n with
  | zero => exact rfl
  | succ n => exact (dif_pos h0).trans rfl

/-- At a later key tile: that case's contents, over what the point before left. -/
theorem outsAt1_B (c : Dev nD) (t : Fin cfg1.N) (h0 : ¬t.val % 8 = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The data the launch theorems ask for -/

/-- For the second call on core c: the arrays as the call finds them; after the body at point t each input's buffer at its
    block and the output's at the accumulation; beside them only what the body never touches; nothing owed; whole shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a later key tile the output block's staging buffer holds what the body left at the point before: the point is not
    the first, and the buffer was not written back between. -/
theorem before1_4_B (c : Dev nD) (t : Fin cfg1.N) (h0 : ¬t.val % 8 = 0) (d) :
    (dat1 V c).before 4 t d = (outsAt1 V c (t.val - 1) (Nat.lt_of_le_of_lt (Nat.sub_le _ _) t.isLt)) := by
  have hN : t.val < 128 := lt_of_lt_of_eq t.isLt (show cfg1.N = 128 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body at a point of the grid -/

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
/-- The body at any point: the inputs' buffers hold their blocks; the point is at a first key tile or at a later one, and at
    a later one the output's buffer holds what the point before left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 128 := lt_of_lt_of_eq t.isLt (show cfg1.N = 128 from N_1)
  by_cases h0 : t.val % 8 = 0
  · rw [outsAt1_A V c t h0]
    unfold out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _)
  · rw [outsAt1_B V c t h0]
    simp only [before1_4_B V c t h0]
    unfold out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _)

/-- The body's obligation to the launch theorems, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Calls

end
-- ==== Proof.KI.MainRun.lean ====
/-
  @main from the launch to the return: a stretch of host operations (reshape, three transposes, two concatenations,
  reshape), the projection call, a second stretch (reshape, three slices), the attention call.
  The contents of core c's unscoped buffers at each of the five boundaries are a fold from the launch memory: a host
  stretch applies its operations; a call leaves each of its windows' arrays at what its write-backs leave (an input array
  as it was) and every other buffer as it was. No host operation and no call writes an argument array, so each argument
  ends as launched; the result array main_v12 ends at what the attention call's write-backs leave.
  Then the two calls as segments over "every unscoped buffer at the boundary's contents, the generator register at some
  state, nothing owed", @main as the run of the four segments, and the launch: every weakly fair execution terminates
  without a fault in a state whose unscoped buffers hold the last boundary's contents.
-/
import proofs.«174353_j19756849562253_1_alg».proof.Proof.KI.ProjectionCall
import proofs.«174353_j19756849562253_1_alg».proof.Proof.KI.AttentionCall
import proofs.«174353_j19756849562253_1_alg».proof.Proof.Gen.KernelIdeal.Regions

-- membership of an index in a rectangle of these extents is checked structurally, one step per coordinate of a long axis
set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev memLaunch : Dev nD → Valuation τ sig (Elt F) := fun c b => (s₀ m ρ).mem ((c : Dev nD), b)
/-- After the first host stretch: what the projection call is entered with. -/
abbrev memIn0 : Dev nD → Valuation τ sig (Elt F) := fun c => StableHlo.after hostOps0 (memLaunch m ρ c)
abbrev bufIn0 : (c : Dev nD) → (b : Ref sig .tc) → Buf (Elt F) ((c : Thread nD τ).loc b) := fun c b => memIn0 m ρ c b
/-- After the projection call. -/
def memOut0 (c : Dev nD) : Valuation τ sig (Elt F) :=
  Pipeline.withArrays spec0 c (memIn0 m ρ c) fun w => (dat0 (bufIn0 m ρ) c).arrAt w cfg0.N
theorem memOut0_arr (c : Dev nD) (w : Fin cfg0.W) :
    memOut0 m ρ c (Proc.devRef .tc (Pipeline.arrRef spec0 w)) = (dat0 (bufIn0 m ρ) c).arrAt w cfg0.N := by
  unfold memOut0; exact Pipeline.withArrays_arr spec0 launch0.win.arr_inj c _ _ w
theorem memOut0_of_ne (c : Dev nD) (b : Ref sig .tc) (hb : ∀ w, Pipeline.arrRef spec0 w ≠ b) :
    memOut0 m ρ c (Proc.devRef .tc b) = memIn0 m ρ c (Proc.devRef .tc b) := by
  unfold memOut0; exact Pipeline.withArrays_of_ne spec0 c _ _ b hb
abbrev bufOut0 : (c : Dev nD) → (b : Ref sig .tc) → Buf (Elt F) ((c : Thread nD τ).loc b) := fun c b => memOut0 m ρ c b
theorem hF0 (c : Dev nD) (w : Fin cfg0.W) : (dat0 (bufIn0 m ρ) c).arrAt w cfg0.N = bufOut0 m ρ c (Pipeline.arrRef spec0 w) :=
  (memOut0_arr m ρ c w).symm
theorem hrest0 (c : Dev nD) : ∀ b, b ∉ Finset.univ.image (Pipeline.arrRef spec0) → bufOut0 m ρ c b = bufIn0 m ρ c b :=
  fun b hb => memOut0_of_ne m ρ c b fun w e => hb (Finset.mem_image.mpr ⟨w, Finset.mem_univ _, e⟩)

/-- After the second host stretch: what the attention call is entered with. -/
abbrev memIn1 : Dev nD → Valuation τ sig (Elt F) := fun c => StableHlo.after hostOps1 (memOut0 m ρ c)
abbrev bufIn1 : (c : Dev nD) → (b : Ref sig .tc) → Buf (Elt F) ((c : Thread nD τ).loc b) := fun c b => memIn1 m ρ c b
/-- After the attention call: the end. -/
def memEnd (c : Dev nD) : Valuation τ sig (Elt F) :=
  Pipeline.withArrays spec1 c (memIn1 m ρ c) fun w => (dat1 (bufIn1 m ρ) c).arrAt w cfg1.N
theorem memEnd_arr (c : Dev nD) (w : Fin cfg1.W) :
    memEnd m ρ c (Proc.devRef .tc (Pipeline.arrRef spec1 w)) = (dat1 (bufIn1 m ρ) c).arrAt w cfg1.N := by
  unfold memEnd; exact Pipeline.withArrays_arr spec1 launch1.win.arr_inj c _ _ w
theorem memEnd_of_ne (c : Dev nD) (b : Ref sig .tc) (hb : ∀ w, Pipeline.arrRef spec1 w ≠ b) :
    memEnd m ρ c (Proc.devRef .tc b) = memIn1 m ρ c (Proc.devRef .tc b) := by
  unfold memEnd; exact Pipeline.withArrays_of_ne spec1 c _ _ b hb
abbrev bufEnd : (c : Dev nD) → (b : Ref sig .tc) → Buf (Elt F) ((c : Thread nD τ).loc b) := fun c b => memEnd m ρ c b
theorem hF1 (c : Dev nD) (w : Fin cfg1.W) : (dat1 (bufIn1 m ρ) c).arrAt w cfg1.N = bufEnd m ρ c (Pipeline.arrRef spec1 w) :=
  (memEnd_arr m ρ c w).symm
theorem hrest1 (c : Dev nD) : ∀ b, b ∉ Finset.univ.image (Pipeline.arrRef spec1) → bufEnd m ρ c b = bufIn1 m ρ c b :=
  fun b hb => memEnd_of_ne m ρ c b fun w e => hb (Finset.mem_image.mpr ⟨w, Finset.mem_univ _, e⟩)

/-! ## The arguments end as launched, the result at the attention call's write-backs -/

/-- A buffer that no host operation writes and that is no window's array of either call ends as launched. -/
theorem untouched (c : Dev nD) (r : Ref sig .tc) (h0 : r ∉ hostOps0_W) (h1 : r ∉ hostOps1_W)
    (hw0 : ∀ w, Pipeline.arrRef spec0 w ≠ r) (hw1 : ∀ w, Pipeline.arrRef spec1 w ≠ r) :
    memEnd m ρ c (Proc.devRef .tc r) = m ((c : Thread nD τ).loc r) :=
  calc memEnd m ρ c (Proc.devRef .tc r)
    _ = memIn1 m ρ c (Proc.devRef .tc r) := memEnd_of_ne m ρ c r hw1
    _ = memOut0 m ρ c (Proc.devRef .tc r) := StableHlo.after_of_writes_sub hostOps1 _ hostOps1_writes h1
    _ = memIn0 m ρ c (Proc.devRef .tc r) := memOut0_of_ne m ρ c r hw0
    _ = memLaunch m ρ c (Proc.devRef .tc r) := StableHlo.after_of_writes_sub hostOps0 _ hostOps0_writes h0
    _ = m ((c : Thread nD τ).loc r) := rfl

theorem end_main_arg0 (c : Dev nD) : memEnd m ρ c (Proc.devRef .tc main_arg0) = m ((c : Thread nD τ).loc main_arg0) :=
  untouched m ρ c main_arg0 (by decide) (by decide) (by decide) (by decide)
theorem end_main_arg2 (c : Dev nD) : memEnd m ρ c (Proc.devRef .tc main_arg2) = m ((c : Thread nD τ).loc main_arg2) :=
  untouched m ρ c main_arg2 (by decide) (by decide) (by decide) (by decide)
theorem end_main_arg3 (c : Dev nD) : memEnd m ρ c (Proc.devRef .tc main_arg3) = m ((c : Thread nD τ).loc main_arg3) :=
  untouched m ρ c main_arg3 (by decide) (by decide) (by decide) (by decide)
theorem end_main_arg4 (c : Dev nD) : memEnd m ρ c (Proc.devRef .tc main_arg4) = m ((c : Thread nD τ).loc main_arg4) :=
  untouched m ρ c main_arg4 (by decide) (by decide) (by decide) (by decide)
theorem end_main_arg5 (c : Dev nD) : memEnd m ρ c (Proc.devRef .tc main_arg5) = m ((c : Thread nD τ).loc main_arg5) :=
  untouched m ρ c main_arg5 (by decide) (by decide) (by decide) (by decide)
theorem end_main_arg6 (c : Dev nD) : memEnd m ρ c (Proc.devRef .tc main_arg6) = m ((c : Thread nD τ).loc main_arg6) :=
  untouched m ρ c main_arg6 (by decide) (by decide) (by decide) (by decide)
theorem end_main_arg7 (c : Dev nD) : memEnd m ρ c (Proc.devRef .tc main_arg7) = m ((c : Thread nD τ).loc main_arg7) :=
  untouched m ρ c main_arg7 (by decide) (by decide) (by decide) (by decide)
/-- The mask is an input array of the attention call (its window 3): a call leaves an input array as it was. -/
theorem end_main_arg1 (c : Dev nD) : memEnd m ρ c (Proc.devRef .tc main_arg1) = m ((c : Thread nD τ).loc main_arg1) :=
  calc memEnd m ρ c (Proc.devRef .tc main_arg1)
    _ = memIn1 m ρ c (Proc.devRef .tc main_arg1) := (memEnd_arr m ρ c 3).trans (((dat1 (bufIn1 m ρ) c).arrAt_in 3 rfl _).trans (A_eq1 (bufIn1 m ρ) c 3))
    _ = memOut0 m ρ c (Proc.devRef .tc main_arg1) := StableHlo.after_of_writes_sub hostOps1 _ hostOps1_writes (by decide)
    _ = memIn0 m ρ c (Proc.devRef .tc main_arg1) := memOut0_of_ne m ρ c main_arg1 (by decide)
    _ = memLaunch m ρ c (Proc.devRef .tc main_arg1) := StableHlo.after_of_writes_sub hostOps0 _ hostOps0_writes (by decide)
    _ = m ((c : Thread nD τ).loc main_arg1) := rfl
/-- The result array is the attention call's output window's array. -/
theorem end_main_v12 (c : Dev nD) : memEnd m ρ c (Proc.devRef .tc main_v12) = (dat1 (bufIn1 m ρ) c).arrAt 4 cfg1.N :=
  memEnd_arr m ρ c 4

/-! ## The proof data of both calls, and what rides beside the buffers -/

/-- No call has a prefetched table. -/
abbrev noTables : (p : Fin 2) → (pcfgs (F := F) p).Adm := fun p => (cfgs p).toPCfg_adm
/-- Each call's proof data at the contents the call is entered with. -/
def pdats : (p : Fin 2) → (c : Dev nD) → Dat τ (Elt F) Unit ℕ (UR sig nD τ) ℕ (Pipeline.pin (pcfgs (F := F)) noTables p) c
  | ⟨0, _⟩ => fun c => dat0 (bufIn0 m ρ) c
  | ⟨1, _⟩ => fun c => dat1 (bufIn1 m ρ) c
abbrev 𝒱₀ : Variants := Variants.none
/-- No core waits for another: no level is assigned. -/
abbrev L : GSem nD τ sig → Finset Unit := fun _ => ∅
abbrev lv : GSem nD τ sig → Unit → ℕ := fun _ _ => 0
/-- Beside the buffers, through every segment: the core's generator register at some state, and that it owes nothing. -/
abbrev R (c : Dev nD) : sProp 𝕄 := iprop((∃ r, prngReg c r) ∗ ∃ W, owes (c : Thread nD τ) (0 : CellTallies nD τ sig Unit) W)
/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore buffer is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the "owes nothing": every unscoped buffer at the end contents, the register at some state. -/
abbrev Tₙ (c : Dev nD) : sProp 𝕄 := iprop(StableHlo.held (c : Thread nD τ) (Pipeline.ucRefs τ sig) (memEnd m ρ c) ∗ ∃ r, prngReg c r)

/-! ## The calls as segments -/

-- (the library's lemmas are stated over the pinned configuration; unifying with it must unfold plain definitions in a type)
set_option backward.isDefEq.respectTransparency.types false in
/-- Call 0 as a segment of @main: entered with every unscoped buffer at its contents before the call, left with them at
    the contents after it. Its windows' arrays are split out of the unscoped buffers on entry and put back on exit at what
    the write-backs leave; the generator register goes into the call's invariant and comes back; nothing is owed and the
    kernel has no semaphore of its own. -/
def call0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (bufIn0 m ρ) c).loose
  hwaits := Pipeline.hwaits_of_owed_zero _ _ _ _ L lv 0 fun _ _ => rfl
  pre c := iprop(StableHlo.held (c : Thread nD τ) (Pipeline.ucRefs τ sig) (memIn0 m ρ c) ∗ R c)
  post c := iprop(StableHlo.held (c : Thread nD τ) (Pipeline.ucRefs τ sig) (memOut0 m ρ c) ∗ R c)
  X c := iprop(∃ r, prngReg c r)
  Y c := iprop(∃ r, prngReg c r)
  Z c := Pipeline.unscopedRest (Ix := Unit) (Name := ℕ) (U := UR sig nD τ) (Lvl := ℕ) spec0 c (bufIn0 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (bufIn0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (bufIn0 m ρ c) (bufOut0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- (the library's lemmas are stated over the pinned configuration; unifying with it must unfold plain definitions in a type)
set_option backward.isDefEq.respectTransparency.types false in
/-- Call 1 as a segment of @main: entered with every unscoped buffer at its contents before the call, left with them at
    the contents after it. Its windows' arrays are split out of the unscoped buffers on entry and put back on exit at what
    the write-backs leave; the generator register goes into the call's invariant and comes back; nothing is owed and the
    kernel has no semaphore of its own. -/
def call1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (bufIn1 m ρ) c).loose
  hwaits := Pipeline.hwaits_of_owed_zero _ _ _ _ L lv 1 fun _ _ => rfl
  pre c := iprop(StableHlo.held (c : Thread nD τ) (Pipeline.ucRefs τ sig) (memIn1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (bufIn1 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (bufIn1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (bufIn1 m ρ c) (bufEnd m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four segments, and the launch -/

abbrev items : List (Pipeline.Seg (pcfgs (F := F)) noTables (pdats m ρ) () defs₀ 𝒱₀ L lv) :=
  [ .host (hseg hostOps0 hostOps0_sub hostOps0_fresh (memLaunch m ρ)),
    .region (call0 m ρ),
    .host (hseg hostOps1 hostOps1_sub hostOps1_fresh (memOut0 m ρ)),
    .region (call1 m ρ) ]
/-- @main is the run of the four segments. -/
theorem main_is_items (c : Dev nD) : main (F := F) c = Pipeline.Seg.run (items m ρ) := (main_chain c).trans (by chain_rfl)

-- (the launch theorem's implicit arguments are found by unifying its conclusion with this one, which must unfold plain definitions in a type)
set_option backward.isDefEq.respectTransparency.types false in
/-- THE RUN, at any float instance: from any memory with zero counters every weakly fair execution of @main terminates,
    nothing faulting, in a state where the result array holds what the attention call's write-backs leave and every
    argument array holds its launch contents. -/
theorem run_all : θ_run defs (onTc (τ := τ) (main (F := F))) ⟨m, fun _ => 0, ρ⟩ (fun r => ∀ c : Dev nD,
      r.2.mem ((c.tc : Thread nD τ).loc main_v12) = (dat1 (bufIn1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) noTables (pdats m ρ) () cellOf_inj emb₁ defs₀ 𝒱₀ L lv m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (memLaunch m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (memLaunch m ρ c)
        from Pipeline.unscopedBufs_held c (memLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = memEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (memEnd m ρ c) s')
      isplitl [Hh] <;> iassumption)
    (hQ := fun s h c =>
      ⟨(h c _ (mem_uc main_v12 (by decide))).trans (end_main_v12 m ρ c),
       (h c _ (mem_uc main_arg0 (by decide))).trans (end_main_arg0 m ρ c),
       (h c _ (mem_uc main_arg1 (by decide))).trans (end_main_arg1 m ρ c),
       (h c _ (mem_uc main_arg2 (by decide))).trans (end_main_arg2 m ρ c),
       (h c _ (mem_uc main_arg3 (by decide))).trans (end_main_arg3 m ρ c),
       (h c _ (mem_uc main_arg4 (by decide))).trans (end_main_arg4 m ρ c),
       (h c _ (mem_uc main_arg5 (by decide))).trans (end_main_arg5 m ρ c),
       (h c _ (mem_uc main_arg6 (by decide))).trans (end_main_arg6 m ρ c),
       (h c _ (mem_uc main_arg7 (by decide))).trans (end_main_arg7 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_all m ρ)

end Cert.KernelIdeal.Calls

end
-- ==== Proof.Spec.lean ====
/-
  The function both programs compute, on the extended reals, index by index.

  With x the hidden states [2, 4096, 1024], W and b a projection's weight [1024, 1024] and bias [1024]:
      proj x W b (n, s, e)  =  Σ_d x(n, s, d) · W(e, d)  +  b(e)                     (a row of x against a ROW of W)
  With q, k, v the three projections and M the mask [2, 1, 4096, 4096]:
      score (n, i, j)       =  Σ_d q(n, i, d) · k(n, j, d)
      weight (n, i, j)      =  σ( σ( score(n, i, j) · 2⁻⁵ ) · M(n, 0, i, j) )            σ the logistic function
      result (n, i, e)      =  Σ_j weight(n, i, j) · v(n, j, e)
  The scale 2⁻⁵ is kept as the f32 word 0x3D000000 that spells it. Every sum is a finite sum in the commutative
  additive monoid of the extended reals, so any regrouping of a sum is the same number, infinities included.
-/
import Idealize.ShloMosaic.PureOps.Ideal
import Idealize.ShloMosaic.Lib.ValueIdx

noncomputable section

namespace Cert.SigmoidAttention

open Idealize.ShloMosaic Idealize.ShloMosaic.ValueIdx

/-- The arrays' index types. -/
abbrev IHid : Type := (⟨3, ![2, 4096, 1024]⟩ : Shape).Idx
abbrev IMask : Type := (⟨4, ![2, 1, 4096, 4096]⟩ : Shape).Idx
abbrev IWt : Type := (⟨2, ![1024, 1024]⟩ : Shape).Idx
abbrev IBias : Type := (⟨1, ![1024]⟩ : Shape).Idx

/-- One linear projection: row (n, s) of x against row e of W, plus b(e). -/
def proj (x : IHid → EReal) (W : IWt → EReal) (b : IBias → EReal) (n : Fin 2) (s : Fin 4096) (e : Fin 1024) : EReal :=
  (∑ d : Fin 1024, x (ix3 n s d) * W (ix2 e d)) + b (ix1 e)

/-- The score of query row i against key row j: the inner product of the two projected rows. -/
def score (q k : Fin 2 → Fin 4096 → Fin 1024 → EReal) (n : Fin 2) (i j : Fin 4096) : EReal :=
  ∑ d : Fin 1024, q n i d * k n j d

/-- The weight of key j for query i: the logistic of the scaled score, times the mask, through the logistic again. -/
def weight (q k : Fin 2 → Fin 4096 → Fin 1024 → EReal) (M : IMask → EReal) (n : Fin 2) (i j : Fin 4096) : EReal :=
  Ideal.logistic (Ideal.logistic (score q k n i j * Ideal.ofBits .f32 0x3D000000#32) * M (ix4 n (0 : Fin 1) i j))

/-- The result at (n, i, e): the weighted sum of the value rows. -/
def result (x : IHid → EReal) (M : IMask → EReal) (Wq : IWt → EReal) (bq : IBias → EReal) (Wk : IWt → EReal)
    (bk : IBias → EReal) (Wv : IWt → EReal) (bv : IBias → EReal) : IHid → EReal := fun idx =>
  ∑ j : Fin 4096, weight (proj x Wq bq) (proj x Wk bk) M (idx 0) (idx 1) j * proj x Wv bv (idx 0) j (idx 2)

theorem result_apply (x : IHid → EReal) (M : IMask → EReal) (Wq : IWt → EReal) (bq : IBias → EReal) (Wk : IWt → EReal)
    (bk : IBias → EReal) (Wv : IWt → EReal) (bv : IBias → EReal) (n : Fin 2) (i : Fin 4096) (e : Fin 1024) :
    result x M Wq bq Wk bk Wv bv (ix3 n i e)
      = ∑ j : Fin 4096, weight (proj x Wq bq) (proj x Wk bk) M n i j * proj x Wv bv n j e := rfl

end Cert.SigmoidAttention

end
-- ==== Proof.LibFlattenBroadcast.lean ====
/-
  Layout operations read at an index written by coordinates, for the shapes a "join two sequences, then one matrix
  product" kernel meets and Lib/ValueLayout.lean does not have.

  A shape cast keeps the row-major position of every element. So
  • inserting a unit axis in the middle, [a, c] → [a, 1, c], reads (p, ·, d) at (p, d);
  • merging the two leading axes, [a, b, c] → [a·b, c], reads row p·b + q at (p, q, ·), and splitting them again,
    [a·b, c] → [a, b, c], reads (p, q, ·) at row p·b + q. The merged extent is a literal in a printed program
    (2048, not 16·128), so it is a variable `n` here and only the row's value is related to p·b + q.
  A broadcast along an axis of extent one reads the operand's one entry on that axis:
  • [a, 1, c] → [a, b, c] reads (p, q, d) at (p, 0, d);
  • [1, b, c] → [a, b, c] reads (p, q, d) at (0, q, d).
-/
import Idealize.ShloMosaic.Lib.ValueLayout

namespace Cert.LibFlattenBroadcast

open Idealize.ShloMosaic Idealize.ShloMosaic.ValueIdx

variable {α : Type}

/-- An `[a, c]` array cast to `[a, 1, c]` reads, at `(p, u, d)`, the operand at `(p, d)`, whatever the unit
    coordinate `u`: both sit at row-major position p·c + d. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_two, Shape.rowMajor_val_three]
    show p.val * c + d.val = (p.val * 1 + u.val) * c + d.val
    rw [hu, Nat.mul_one, Nat.add_zero])

/-- An `[a, b, c]` array with its two leading axes merged, `[n, c]` with n = a·b, reads, at row `r = p·b + q` and
    column `d`, the operand at `(p, q, d)`: both sit at row-major position (p·b + q)·c + d. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- An `[n, c]` array, n = a·b, with its leading axis split, `[a, b, c]`, reads, at `(p, q, d)`, the operand at row
    `r = p·b + q` and column `d`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ x h (ix3 p q d) = x (ix2 r d) :=
  shapeCast_apply x h _ _ (by
    rw [Shape.rowMajor_val_two, Shape.rowMajor_val_three]
    show r.val * c + d.val = (p.val * b + q.val) * c + d.val
    rw [hr])

/-- An `[a, 1, c]` array broadcast to `[a, b, c]` reads, at `(p, q, d)`, the operand at `(p, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (d : Fin c) :
    broadcastTo ⟨3, ![a, b, c]⟩ v h (ix3 p q d) = v (ix3 p (0 : Fin 1) d) := by
  refine broadcastTo_apply v h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(p, q, d)`, the operand at `(0, q, d)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (d : Fin c) :
    broadcastTo ⟨3, ![a, b, c]⟩ v h (ix3 p q d) = v (ix3 (0 : Fin 1) q d) := by
  refine broadcastTo_apply v h (ix3 p q d) (ix3 (0 : Fin 1) q d) fun ax => ?_
  match ax with
  | ⟨0, _⟩ => rfl
  | ⟨1, _⟩ =>
    show q.val = if b = 1 then 0 else q.val
    split
    · have := q.isLt; omega
    · rfl
  | ⟨2, _⟩ =>
    show d.val = if c = 1 then 0 else d.val
    split
    · have := d.isLt; omega
    · rfl

end Cert.LibFlattenBroadcast
-- ==== Proof.KI.HostValue.lean ====
/-
  The host operations around the two calls, read at an index, at the exact values.

  Before the projection call: the hidden states x [2, 4096, 1024] are flattened to 8192 rows (row n·4096 + s is (n, s));
  the three weight matrices are transposed and laid side by side, Wcat [1024, 3072] — so Wcat(d, e') is Wq(e, d), Wk(e, d)
  or Wv(e, d) according as e' = e, 1024 + e or 2048 + e —; the three biases are laid end to end and kept as one row.
  After it: the product y [8192, 3072] is split back to [2, 4096, 3072] and cut into its three column bands q, k, v.
  So, given that the projection call leaves y(r, c') = Σ_d x-row(r, d)·Wcat(d, c') + bias(c'), each band is the
  projection Σ_d x(n, s, d)·W(e, d) + b(e) of the specification. The mask reaches the attention call as launched.
-/
import proofs.«174353_j19756849562253_1_alg».proof.Proof.KI.MainRun
import proofs.«174353_j19756849562253_1_alg».proof.Proof.Spec
import proofs.«174353_j19756849562253_1_alg».proof.Proof.LibFlattenBroadcast
import Idealize.ShloMosaic.Lib.ValueLayout
import Idealize.ShloMosaic.Lib.Pipeline.Value
import Idealize.ShloMosaic.Lib.StableHlo.Run

set_option maxRecDepth 16384

noncomputable section

namespace Cert.KernelIdeal.HostValue

open Cert.KernelIdeal Cert.KernelIdeal.Gen Cert.KernelIdeal.Calls
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ## The two stretches' results as terms of the launch memory -/

/-- The three transposed weights, -/
abbrev wPieces (c : Dev nD) : List ((s : Shape) × (s.Idx → EReal)) :=
  [⟨S1024x1024, transpose S1024x1024 [1, 0] (m ((c : Thread nD τ).loc main_arg2)) transposes_S1024x1024_S1024x1024_1_0⟩,
    ⟨S1024x1024, transpose S1024x1024 [1, 0] (m ((c : Thread nD τ).loc main_arg4)) transposes_S1024x1024_S1024x1024_1_0⟩,
    ⟨S1024x1024, transpose S1024x1024 [1, 0] (m ((c : Thread nD τ).loc main_arg6)) transposes_S1024x1024_S1024x1024_1_0⟩]
/-- side by side. -/
abbrev wcat (c : Dev nD) : S1024x3072.Idx → EReal :=
  concatenate S1024x3072 1 (wPieces m c) concatenates_S1024x1024_S1024x1024_S1024x1024_S1024x3072_d1

/-- The three biases, -/
abbrev bPieces (c : Dev nD) : List ((s : Shape) × (s.Idx → EReal)) :=
  [⟨S1024, m ((c : Thread nD τ).loc main_arg3)⟩, ⟨S1024, m ((c : Thread nD τ).loc main_arg5)⟩, ⟨S1024, m ((c : Thread nD τ).loc main_arg7)⟩]
/-- end to end. -/
abbrev bcat (c : Dev nD) : S3072.Idx → EReal :=
  concatenate S3072 0 (bPieces m c) concatenates_S1024_S1024_S1024_S3072_d0

theorem in0_rows (c : Dev nD) : (memIn0 (F := Ideal) m ρ c (Proc.devRef .tc main_v0) : S8192x1024.Idx → EReal)
    = shapeCast S8192x1024 (m ((c : Thread nD τ).loc main_arg0)) shapeCasts_S2x4096x1024_S8192x1024 := by
  dsimp only [memIn0]; after_results; rfl

theorem in0_wcat (c : Dev nD) : (memIn0 (F := Ideal) m ρ c (Proc.devRef .tc main_v4) : S1024x3072.Idx → EReal) = wcat m c := by
  dsimp only [memIn0]; after_results; rfl

theorem in0_bias (c : Dev nD) : (memIn0 (F := Ideal) m ρ c (Proc.devRef .tc main_v6) : S1x3072.Idx → EReal)
    = shapeCast S1x3072 (bcat m c) shapeCasts_S3072_S1x3072 := by
  dsimp only [memIn0]; after_results; rfl

/-- The split product: what the three bands are cut from. -/
abbrev split (c : Dev nD) : S2x4096x3072.Idx → EReal :=
  shapeCast S2x4096x3072 (memOut0 (F := Ideal) m ρ c (Proc.devRef .tc main_v7) : S8192x3072.Idx → EReal) shapeCasts_S8192x3072_S2x4096x3072

theorem in1_q (c : Dev nD) : (memIn1 (F := Ideal) m ρ c (Proc.devRef .tc main_v9) : S2x4096x1024.Idx → EReal)
    = extractStridedSlice S2x4096x1024 ![0, 0, 0] (split m ρ c) slices_S2x4096x3072_S2x4096x1024_0_0_0 := by
  dsimp only [memIn1]; after_results; rfl
theorem in1_k (c : Dev nD) : (memIn1 (F := Ideal) m ρ c (Proc.devRef .tc main_v10) : S2x4096x1024.Idx → EReal)
    = extractStridedSlice S2x4096x1024 ![0, 0, 1024] (split m ρ c) slices_S2x4096x3072_S2x4096x1024_0_0_1024 := by
  dsimp only [memIn1]; after_results; rfl
theorem in1_v (c : Dev nD) : (memIn1 (F := Ideal) m ρ c (Proc.devRef .tc main_v11) : S2x4096x1024.Idx → EReal)
    = extractStridedSlice S2x4096x1024 ![0, 0, 2048] (split m ρ c) slices_S2x4096x3072_S2x4096x1024_0_0_2048 := by
  dsimp only [memIn1]; after_results; rfl

/-- The mask is written by no host operation and is no window's array of the projection call. -/
theorem mask (c : Dev nD) : bufIn1 (F := Ideal) m ρ c main_arg1 = m ((c : Thread nD τ).loc main_arg1) :=
  calc memIn1 m ρ c (Proc.devRef .tc main_arg1)
    _ = memOut0 m ρ c (Proc.devRef .tc main_arg1) := StableHlo.after_of_writes_sub hostOps1 _ hostOps1_writes (by decide)
    _ = memIn0 m ρ c (Proc.devRef .tc main_arg1) := memOut0_of_ne m ρ c main_arg1 (by decide)
    _ = memLaunch m ρ c (Proc.devRef .tc main_arg1) := StableHlo.after_of_writes_sub hostOps0 _ hostOps0_writes (by decide)
    _ = m ((c : Thread nD τ).loc main_arg1) := rfl

/-! ## Each term at an index -/

/-- Row n·4096 + s of the flattened hidden states is row (n, s). -/
theorem rows_apply (c : Dev nD) (n : Fin 2) (s : Fin 4096) (d : Fin 1024) (p : Fin 8192) (hp : p.val = n.val * 4096 + s.val) :
    (memIn0 (F := Ideal) m ρ c (Proc.devRef .tc main_v0) : S8192x1024.Idx → EReal) (ix2 p d)
      = m ((c : Thread nD τ).loc main_arg0) (ix3 n s d) := by
  rw [in0_rows]
  exact Cert.LibFlattenBroadcast.shapeCast_abc_nc_apply _ _ n s d p hp

set_option maxHeartbeats 400000 in
/-- Column 0 + e of Wcat is row e of the q weight matrix. -/
theorem wcat_q (c : Dev nD) (d : Fin 1024) (e : Fin 1024) (e' : Fin 3072) (he : 0 + e.val = e'.val) :
    (memIn0 (F := Ideal) m ρ c (Proc.devRef .tc main_v4) : S1024x3072.Idx → EReal) (ix2 d e') = m ((c : Thread nD τ).loc main_arg2) (ix2 e d) := by
  rw [in0_wcat]
  have hpre : ((((wPieces m c).take 0).map (·.1)).map fun s => if h : s.rank = S1024x3072.rank then s.size ((1 : Fin S1024x3072.rank).cast h.symm) else 0).sum = 0 := rfl
  have hi : ∀ b : Fin S1024x1024.rank, b.cast (rfl : S1024x1024.rank = S1024x3072.rank) ≠ (1 : Fin S1024x3072.rank) →
      ((ix2 d e : S1024x1024.Idx) b).val = ((ix2 d e' : S1024x3072.Idx) (b.cast rfl)).val := by
    intro b hb
    match b with
    | ⟨0, _⟩ => rfl
    | ⟨1, _⟩ => exact absurd rfl hb
  have key := concatenate_apply_piece (t := S1024x3072) (1 : Fin S1024x3072.rank) (wPieces m c) concatenates_S1024x1024_S1024x1024_S1024x1024_S1024x3072_d1 (ix2 d e') 0 (show 0 < 3 from by decide)
    S1024x1024 (transpose S1024x1024 [1, 0] (m ((c : Thread nD τ).loc main_arg2)) transposes_S1024x1024_S1024x1024_1_0) rfl rfl 0 hpre (ix2 d e) hi he
  exact key.trans (transpose_ix2_apply _ _ d e)

set_option maxHeartbeats 400000 in
/-- Column 1024 + e of Wcat is row e of the k weight matrix. -/
theorem wcat_k (c : Dev nD) (d : Fin 1024) (e : Fin 1024) (e' : Fin 3072) (he : 1024 + e.val = e'.val) :
    (memIn0 (F := Ideal) m ρ c (Proc.devRef .tc main_v4) : S1024x3072.Idx → EReal) (ix2 d e') = m ((c : Thread nD τ).loc main_arg4) (ix2 e d) := by
  rw [in0_wcat]
  have hpre : ((((wPieces m c).take 1).map (·.1)).map fun s => if h : s.rank = S1024x3072.rank then s.size ((1 : Fin S1024x3072.rank).cast h.symm) else 0).sum = 1024 := rfl
  have hi : ∀ b : Fin S1024x1024.rank, b.cast (rfl : S1024x1024.rank = S1024x3072.rank) ≠ (1 : Fin S1024x3072.rank) →
      ((ix2 d e : S1024x1024.Idx) b).val = ((ix2 d e' : S1024x3072.Idx) (b.cast rfl)).val := by
    intro b hb
    match b with
    | ⟨0, _⟩ => rfl
    | ⟨1, _⟩ => exact absurd rfl hb
  have key := concatenate_apply_piece (t := S1024x3072) (1 : Fin S1024x3072.rank) (wPieces m c) concatenates_S1024x1024_S1024x1024_S1024x1024_S1024x3072_d1 (ix2 d e') 1 (show 1 < 3 from by decide)
    S1024x1024 (transpose S1024x1024 [1, 0] (m ((c : Thread nD τ).loc main_arg4)) transposes_S1024x1024_S1024x1024_1_0) rfl rfl 1024 hpre (ix2 d e) hi he
  exact key.trans (transpose_ix2_apply _ _ d e)

set_option maxHeartbeats 400000 in
/-- Column 2048 + e of Wcat is row e of the v weight matrix. -/
theorem wcat_v (c : Dev nD) (d : Fin 1024) (e : Fin 1024) (e' : Fin 3072) (he : 2048 + e.val = e'.val) :
    (memIn0 (F := Ideal) m ρ c (Proc.devRef .tc main_v4) : S1024x3072.Idx → EReal) (ix2 d e') = m ((c : Thread nD τ).loc main_arg6) (ix2 e d) := by
  rw [in0_wcat]
  have hpre : ((((wPieces m c).take 2).map (·.1)).map fun s => if h : s.rank = S1024x3072.rank then s.size ((1 : Fin S1024x3072.rank).cast h.symm) else 0).sum = 2048 := rfl
  have hi : ∀ b : Fin S1024x1024.rank, b.cast (rfl : S1024x1024.rank = S1024x3072.rank) ≠ (1 : Fin S1024x3072.rank) →
      ((ix2 d e : S1024x1024.Idx) b).val = ((ix2 d e' : S1024x3072.Idx) (b.cast rfl)).val := by
    intro b hb
    match b with
    | ⟨0, _⟩ => rfl
    | ⟨1, _⟩ => exact absurd rfl hb
  have key := concatenate_apply_piece (t := S1024x3072) (1 : Fin S1024x3072.rank) (wPieces m c) concatenates_S1024x1024_S1024x1024_S1024x1024_S1024x3072_d1 (ix2 d e') 2 (show 2 < 3 from by decide)
    S1024x1024 (transpose S1024x1024 [1, 0] (m ((c : Thread nD τ).loc main_arg6)) transposes_S1024x1024_S1024x1024_1_0) rfl rfl 2048 hpre (ix2 d e) hi he
  exact key.trans (transpose_ix2_apply _ _ d e)

set_option maxHeartbeats 400000 in
/-- Entry 0 + e of the bias row is entry e of the q bias. -/
theorem bias_q (c : Dev nD) (e : Fin 1024) (e' : Fin 3072) (he : 0 + e.val = e'.val) :
    (memIn0 (F := Ideal) m ρ c (Proc.devRef .tc main_v6) : S1x3072.Idx → EReal) (ix2 (0 : Fin 1) e') = m ((c : Thread nD τ).loc main_arg3) (ix1 e) := by
  rw [in0_bias]
  refine (shapeCast_a_1a_apply (bcat m c) shapeCasts_S3072_S1x3072 (0 : Fin 1) e').trans ?_
  have hpre : ((((bPieces m c).take 0).map (·.1)).map fun s => if h : s.rank = S3072.rank then s.size ((0 : Fin S3072.rank).cast h.symm) else 0).sum = 0 := rfl
  have hi : ∀ a : Fin S1024.rank, a.cast (rfl : S1024.rank = S3072.rank) ≠ (0 : Fin S3072.rank) →
      ((ix1 e : S1024.Idx) a).val = ((ix1 e' : S3072.Idx) (a.cast rfl)).val := by
    intro a ha
    match a with
    | ⟨0, _⟩ => exact absurd rfl ha
  exact concatenate_apply_piece (t := S3072) (0 : Fin S3072.rank) (bPieces m c) concatenates_S1024_S1024_S1024_S3072_d0 (ix1 e') 0 (show 0 < 3 from by decide)
    S1024 (m ((c : Thread nD τ).loc main_arg3)) rfl rfl 0 hpre (ix1 e) hi he

set_option maxHeartbeats 400000 in
/-- Entry 1024 + e of the bias row is entry e of the k bias. -/
theorem bias_k (c : Dev nD) (e : Fin 1024) (e' : Fin 3072) (he : 1024 + e.val = e'.val) :
    (memIn0 (F := Ideal) m ρ c (Proc.devRef .tc main_v6) : S1x3072.Idx → EReal) (ix2 (0 : Fin 1) e') = m ((c : Thread nD τ).loc main_arg5) (ix1 e) := by
  rw [in0_bias]
  refine (shapeCast_a_1a_apply (bcat m c) shapeCasts_S3072_S1x3072 (0 : Fin 1) e').trans ?_
  have hpre : ((((bPieces m c).take 1).map (·.1)).map fun s => if h : s.rank = S3072.rank then s.size ((0 : Fin S3072.rank).cast h.symm) else 0).sum = 1024 := rfl
  have hi : ∀ a : Fin S1024.rank, a.cast (rfl : S1024.rank = S3072.rank) ≠ (0 : Fin S3072.rank) →
      ((ix1 e : S1024.Idx) a).val = ((ix1 e' : S3072.Idx) (a.cast rfl)).val := by
    intro a ha
    match a with
    | ⟨0, _⟩ => exact absurd rfl ha
  exact concatenate_apply_piece (t := S3072) (0 : Fin S3072.rank) (bPieces m c) concatenates_S1024_S1024_S1024_S3072_d0 (ix1 e') 1 (show 1 < 3 from by decide)
    S1024 (m ((c : Thread nD τ).loc main_arg5)) rfl rfl 1024 hpre (ix1 e) hi he

set_option maxHeartbeats 400000 in
/-- Entry 2048 + e of the bias row is entry e of the v bias. -/
theorem bias_v (c : Dev nD) (e : Fin 1024) (e' : Fin 3072) (he : 2048 + e.val = e'.val) :
    (memIn0 (F := Ideal) m ρ c (Proc.devRef .tc main_v6) : S1x3072.Idx → EReal) (ix2 (0 : Fin 1) e') = m ((c : Thread nD τ).loc main_arg7) (ix1 e) := by
  rw [in0_bias]
  refine (shapeCast_a_1a_apply (bcat m c) shapeCasts_S3072_S1x3072 (0 : Fin 1) e').trans ?_
  have hpre : ((((bPieces m c).take 2).map (·.1)).map fun s => if h : s.rank = S3072.rank then s.size ((0 : Fin S3072.rank).cast h.symm) else 0).sum = 2048 := rfl
  have hi : ∀ a : Fin S1024.rank, a.cast (rfl : S1024.rank = S3072.rank) ≠ (0 : Fin S3072.rank) →
      ((ix1 e : S1024.Idx) a).val = ((ix1 e' : S3072.Idx) (a.cast rfl)).val := by
    intro a ha
    match a with
    | ⟨0, _⟩ => exact absurd rfl ha
  exact concatenate_apply_piece (t := S3072) (0 : Fin S3072.rank) (bPieces m c) concatenates_S1024_S1024_S1024_S3072_d0 (ix1 e') 2 (show 2 < 3 from by decide)
    S1024 (m ((c : Thread nD τ).loc main_arg7)) rfl rfl 2048 hpre (ix1 e) hi he

/-- Band k of the split product at (n, s, e) is the product's entry at row n·4096 + s, column k·1024 + e. -/
theorem band_apply (c : Dev nD) (off : Nat) (h : S2x4096x3072.Slices ![0, 0, off] S2x4096x1024)
    (n : Fin 2) (s : Fin 4096) (e : Fin 1024) (p : Fin 8192) (hp : p.val = n.val * 4096 + s.val) (e' : Fin 3072) (he : e'.val = off + e.val) :
    extractStridedSlice S2x4096x1024 ![0, 0, off] (split m ρ c) h (ix3 n s e)
      = (memOut0 (F := Ideal) m ρ c (Proc.devRef .tc main_v7) : S8192x3072.Idx → EReal) (ix2 p e') := by
  refine (extractStridedSlice_apply _ _ h (ix3 n s e) (ix3 n s e') (fun ax => ?_)).trans
    (Cert.LibFlattenBroadcast.shapeCast_nc_abc_apply _ shapeCasts_S8192x3072_S2x4096x3072 n s e' p hp)
  match ax with
  | ⟨0, _⟩ => exact (Nat.zero_add _).symm
  | ⟨1, _⟩ => exact (Nat.zero_add _).symm
  | ⟨2, _⟩ => exact he

/-! ## The three bands are the three projections -/

/-- What the projection call is to leave in its output array: every row of the flattened hidden states against every
    column of Wcat, plus the bias row. -/
def rowsTimesColumns (x : S8192x1024.Idx → EReal) (w : S1024x3072.Idx → EReal) (b : S1x3072.Idx → EReal) : S8192x3072.Idx → EReal :=
  fun idx => (∑ k : Fin 1024, x (ix2 (idx 0) k) * w (ix2 k (idx 1))) + b (ix2 (0 : Fin 1) (idx 1))
abbrev Product (c : Dev nD) : Prop :=
  (dat0 (F := Ideal) (bufIn0 m ρ) c).arrAt 3 cfg0.N
    = rowsTimesColumns (bufIn0 m ρ c main_v0) (bufIn0 m ρ c main_v4) (bufIn0 m ρ c main_v6)

theorem rowsTimesColumns_apply (x : S8192x1024.Idx → EReal) (w : S1024x3072.Idx → EReal) (b : S1x3072.Idx → EReal) (p : Fin 8192) (e' : Fin 3072) :
    rowsTimesColumns x w b (ix2 p e') = (∑ k : Fin 1024, x (ix2 p k) * w (ix2 k e')) + b (ix2 (0 : Fin 1) e') := rfl

/-- A band of the product at (n, s, e) is the projection with that band's weight and bias: the band's columns of Wcat are the
    rows of W, its entries of the bias row the entries of b. -/
theorem band_is_proj (c : Dev nD) (hP : Product m ρ c) (off : Nat) (hoff : off + 1024 ≤ 3072) (W : S1024x1024.Idx → EReal) (b : S1024.Idx → EReal)
    (hW : ∀ (d e : Fin 1024) (e' : Fin 3072), off + e.val = e'.val →
      (memIn0 (F := Ideal) m ρ c (Proc.devRef .tc main_v4) : S1024x3072.Idx → EReal) (ix2 d e') = W (ix2 e d))
    (hb : ∀ (e : Fin 1024) (e' : Fin 3072), off + e.val = e'.val →
      (memIn0 (F := Ideal) m ρ c (Proc.devRef .tc main_v6) : S1x3072.Idx → EReal) (ix2 (0 : Fin 1) e') = b (ix1 e))
    (h : S2x4096x3072.Slices ![0, 0, off] S2x4096x1024) (n : Fin 2) (s : Fin 4096) (e : Fin 1024) :
    extractStridedSlice S2x4096x1024 ![0, 0, off] (split m ρ c) h (ix3 n s e)
      = Cert.SigmoidAttention.proj (m ((c : Thread nD τ).loc main_arg0)) W b n s e := by
  have hp : (⟨n.val * 4096 + s.val, by have := n.isLt; have := s.isLt; omega⟩ : Fin 8192).val = n.val * 4096 + s.val := rfl
  have he : (⟨off + e.val, by have := e.isLt; omega⟩ : Fin 3072).val = off + e.val := rfl
  have e7 : (memOut0 (F := Ideal) m ρ c (Proc.devRef .tc main_v7) : S8192x3072.Idx → EReal)
      = rowsTimesColumns (bufIn0 m ρ c main_v0) (bufIn0 m ρ c main_v4) (bufIn0 m ρ c main_v6) := (memOut0_arr m ρ c 3).trans hP
  refine (band_apply m ρ c off h n s e _ hp _ he).trans ((congrFun e7 _).trans ((rowsTimesColumns_apply _ _ _ _ _).trans ?_))
  unfold Cert.SigmoidAttention.proj
  exact congrArg₂ (· + ·) (Finset.sum_congr rfl fun d _ => congrArg₂ (· * ·) (rows_apply m ρ c n s d _ hp) (hW d e _ he.symm)) (hb e _ he.symm)

theorem queries (c : Dev nD) (hP : Product m ρ c) : bufIn1 (F := Ideal) m ρ c main_v9
    = (fun idx : S2x4096x1024.Idx => Cert.SigmoidAttention.proj (m ((c : Thread nD τ).loc main_arg0)) (m ((c : Thread nD τ).loc main_arg2))
        (m ((c : Thread nD τ).loc main_arg3)) (idx 0) (idx 1) (idx 2)) := by
  funext idx
  rw [eq_ix3 idx]
  exact (congrFun (in1_q m ρ c) _).trans (band_is_proj m ρ c hP 0 (by decide) _ _ (wcat_q m ρ c) (bias_q m ρ c) slices_S2x4096x3072_S2x4096x1024_0_0_0 _ _ _)

theorem keys (c : Dev nD) (hP : Product m ρ c) : bufIn1 (F := Ideal) m ρ c main_v10
    = (fun idx : S2x4096x1024.Idx => Cert.SigmoidAttention.proj (m ((c : Thread nD τ).loc main_arg0)) (m ((c : Thread nD τ).loc main_arg4))
        (m ((c : Thread nD τ).loc main_arg5)) (idx 0) (idx 1) (idx 2)) := by
  funext idx
  rw [eq_ix3 idx]
  exact (congrFun (in1_k m ρ c) _).trans (band_is_proj m ρ c hP 1024 (by decide) _ _ (wcat_k m ρ c) (bias_k m ρ c) slices_S2x4096x3072_S2x4096x1024_0_0_1024 _ _ _)

theorem values (c : Dev nD) (hP : Product m ρ c) : bufIn1 (F := Ideal) m ρ c main_v11
    = (fun idx : S2x4096x1024.Idx => Cert.SigmoidAttention.proj (m ((c : Thread nD τ).loc main_arg0)) (m ((c : Thread nD τ).loc main_arg6))
        (m ((c : Thread nD τ).loc main_arg7)) (idx 0) (idx 1) (idx 2)) := by
  funext idx
  rw [eq_ix3 idx]
  exact (congrFun (in1_v m ρ c) _).trans (band_is_proj m ρ c hP 2048 (by decide) _ _ (wcat_v m ρ c) (bias_v m ρ c) slices_S2x4096x3072_S2x4096x1024_0_0_2048 _ _ _)

end Cert.KernelIdeal.HostValue

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.KI.ProjectionPayload.lean ====
/-
  The first call's payload at an entry. The body's one stored value is the product of its two 1024 × 1024 blocks into a
  zero accumulator, plus the 1 × 1024 bias row copied into every row. On the extended reals a change of float format and
  a cast to the same shape are identities, so at row r and column c the value is
      Σ_k x(r, k) · w(k, c) + b(0, c).
-/
import proofs.«174353_j19756849562253_1_alg».proof.Proof.Gen.KernelIdeal.Skeleton
import proofs.«174353_j19756849562253_1_alg».proof.Proof.LibPlainMatmul
import Idealize.ShloMosaic.Lib.ValueLayout
import Idealize.ShloMosaic.Lib.Pipeline.Value

noncomputable section

namespace Cert.KernelIdeal.ProjValue

open Cert.KernelIdeal Cert.KernelIdeal.Gen
open Idealize.ShloMosaic Idealize.ShloMosaic.ValueIdx

/-- The printed contraction record is the plain one: left axis 1 against right axis 0, no batch axis. -/
theorem dot_plain : dot_S1024x1024_S1024x1024_S1024x1024_1_0_0_1_n_n = DotDims.plain 1024 1024 1024 := rfl

/-- The payload at (r, c): the row of x against the column of w, plus the bias at c. -/
theorem payload_apply (x : Vec Ideal S1024x1024 .f32) (w : Vec Ideal S1024x1024 .f32) (b : Vec Ideal S1x1024 .f32)
    (r : Fin 1024) (c : Fin 1024) :
    k0_pay1 (F := Ideal) x w b (ix2 r c) = (∑ k : Fin 1024, x (ix2 r k) * w (ix2 k c)) + b (ix2 (0 : Fin 1) c) := by
  unfold k0_pay1
  rw [addf_apply]
  refine congrArg₂ (· + ·) ?_ ?_
  · rw [dot_plain]
    refine (PlainMatmul.apply_zero _ _ r c).trans ?_
    simp only [truncf_apply, shapeCast_self]
  · refine (broadcastTo_1b_ab_apply _ _ r c).trans ?_
    rw [shapeCast_self]

end Cert.KernelIdeal.ProjValue

end
-- ==== Proof.KI.ProjectionValue.lean ====
/-
  The first call's output array, entry by entry, for ANY contents of the buffers when the call is entered.

  The grid has 8 × 3 points; point t = 3·i + j reads rows 1024·i … 1024·i + 1023 of x [8192, 1024] (all columns),
  columns 1024·j … 1024·j + 1023 of the weights [1024, 3072] (all rows) and of the bias row [1, 3072], and writes back
  the 1024 × 1024 block (i, j) of the output [8192, 3072]. The body's payload at (r, q) of the block is
  Σ_k xblock(r, k) · wblock(k, q) + bblock(0, q), and entry (r, q) of each block is entry (1024·i + r, ·), (·, 1024·j + q)
  of its array; so the block written back is the block of ONE function of the three arrays,
      (R, C) ↦ Σ_k x(R, k) · w(k, C) + b(0, C).
  Every point writes back and the 24 blocks tile the output (entry (R, C) lies in the block of point
  3·(R / 1024) + C / 1024), so after the call the array is that function.
-/
import proofs.«174353_j19756849562253_1_alg».proof.Proof.KI.ProjectionCall
import proofs.«174353_j19756849562253_1_alg».proof.Proof.KI.ProjectionPayload
import Idealize.ShloMosaic.Lib.Pipeline.Value

set_option maxRecDepth 16384

noncomputable section

namespace Cert.KernelIdeal.ProjValue

open Cert.KernelIdeal Cert.KernelIdeal.Gen Cert.KernelIdeal.Calls
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Every row of x against every column of w, plus the bias row's entry at the column. -/
def rowsByColumns (x : S8192x1024.Idx → EReal) (w : S1024x3072.Idx → EReal) (b : S1x3072.Idx → EReal) : S8192x3072.Idx → EReal :=
  fun idx => (∑ k : Fin 1024, x (ix2 (idx 0) k) * w (ix2 k (idx 1))) + b (ix2 (0 : Fin 1) (idx 1))

/-- The printed index maps, decided over the 24 points. -/
theorem index_facts : ∀ t : Fin cfg0.N,
    win0_3.index t (0 : Fin 2) = t.val / 3 ∧ win0_3.index t (1 : Fin 2) = t.val % 3
    ∧ win0_0.index t (0 : Fin 2) = t.val / 3 ∧ win0_0.index t (1 : Fin 2) = 0
    ∧ win0_1.index t (0 : Fin 2) = 0 ∧ win0_1.index t (1 : Fin 2) = t.val % 3
    ∧ win0_2.index t (0 : Fin 2) = 0 ∧ win0_2.index t (1 : Fin 2) = t.val % 3 :=
  (by decide +kernel : ∀ t : Fin grid0.N, _)

/-! ## The blocks the point reads, as entries of the arrays -/

/-- Point t's block of x is rows 1024·(t/3) … of x, all 1024 columns. -/
theorem x_block (c : Dev nD) (t : Fin cfg0.N) (r k : Fin 1024) (R : Fin 8192) (hR : R.val = t.val / 3 * 1024 + r.val) :
    (iblk0 V c 0 t : Vec Ideal S1024x1024 .f32) (ix2 r k) = (V c main_v0 : S8192x1024.Idx → EReal) (ix2 R k) := by
  obtain ⟨-, -, e0, e1, -, -, -, -⟩ := index_facts t
  unfold iblk0
  rw [View.read_apply]
  show V c main_v0 _ = V c main_v0 _
  congr 1
  funext a
  apply Fin.ext
  match a with
  | ⟨0, _⟩ => show win0_0.index t 0 * 1024 + 1 * r.val = R.val; rw [e0, hR]; omega
  | ⟨1, _⟩ => show win0_0.index t 1 * 1024 + 1 * k.val = k.val; rw [e1]; omega

/-- Point t's block of the weights is all 1024 rows, columns 1024·(t mod 3) …. -/
theorem w_block (c : Dev nD) (t : Fin cfg0.N) (k q : Fin 1024) (C : Fin 3072) (hC : C.val = t.val % 3 * 1024 + q.val) :
    (iblk0 V c 1 t : Vec Ideal S1024x1024 .f32) (ix2 k q) = (V c main_v4 : S1024x3072.Idx → EReal) (ix2 k C) := by
  obtain ⟨-, -, -, -, e0, e1, -, -⟩ := index_facts t
  unfold iblk0
  rw [View.read_apply]
  show V c main_v4 _ = V c main_v4 _
  congr 1
  funext a
  apply Fin.ext
  match a with
  | ⟨0, _⟩ => show win0_1.index t 0 * 1024 + 1 * k.val = k.val; rw [e0]; omega
  | ⟨1, _⟩ => show win0_1.index t 1 * 1024 + 1 * q.val = C.val; rw [e1, hC]; omega

/-- Point t's block of the bias row is its columns 1024·(t mod 3) …. -/
theorem b_block (c : Dev nD) (t : Fin cfg0.N) (q : Fin 1024) (C : Fin 3072) (hC : C.val = t.val % 3 * 1024 + q.val) :
    (iblk0 V c 2 t : Vec Ideal S1x1024 .f32) (ix2 (0 : Fin 1) q) = (V c main_v6 : S1x3072.Idx → EReal) (ix2 (0 : Fin 1) C) := by
  obtain ⟨-, -, -, -, -, -, e0, e1⟩ := index_facts t
  unfold iblk0
  rw [View.read_apply]
  show V c main_v6 _ = V c main_v6 _
  congr 1
  funext a
  apply Fin.ext
  match a with
  | ⟨0, _⟩ => show win0_2.index t 0 * 1 + 1 * 0 = 0; rw [e0]
  | ⟨1, _⟩ => show win0_2.index t 1 * 1024 + 1 * q.val = C.val; rw [e1, hC]; omega

/-! ## What a point writes back -/

/-- Point t writes back its block of rowsByColumns of the arrays as the call finds them. -/
theorem flushed_block (c : Dev nD) (t : Fin cfg0.N) :
    (dat0 V c).flushed 3 t = ((cfg0.win 3).blk t).view.read (Elt Ideal) (rowsByColumns (V c main_v0) (V c main_v4) (V c main_v6)) := by
  show (cfg0.win 3).cut (grid0.coords t) ((dat0 V c).after 3 t) = _
  rw [after0_3]
  unfold out0_3
  rw [View.canon_unit_zero zero_offsets]
  simp only [View.ld_unit_zero (S := S1024x1024) zero_offsets, View.ld_unit_zero (S := S1x1024) zero_offsets]
  obtain ⟨e0, e1, -, -, -, -, -, -⟩ := index_facts t
  funext j
  show k0_pay1 (F := Ideal) (iblk0 V c 0 t) (iblk0 V c 1 t) (iblk0 V c 2 t) j
    = rowsByColumns (V c main_v0) (V c main_v4) (V c main_v6) (((cfg0.win 3).blk t).view.emb j)
  have hR : ((((cfg0.win 3).blk t).view.emb j) 0).val = t.val / 3 * 1024 + (j 0).val := by
    show win0_3.index t 0 * 1024 + 1 * (j 0).val = _
    rw [e0]; omega
  have hC : ((((cfg0.win 3).blk t).view.emb j) 1).val = t.val % 3 * 1024 + (j 1).val := by
    show win0_3.index t 1 * 1024 + 1 * (j 1).val = _
    rw [e1]; omega
  refine (congrArg (k0_pay1 (F := Ideal) (iblk0 V c 0 t) (iblk0 V c 1 t) (iblk0 V c 2 t)) (eq_ix2 (n0 := 1024) (n1 := 1024) j)).trans ?_
  refine (payload_apply (iblk0 V c 0 t) (iblk0 V c 1 t) (iblk0 V c 2 t) (j 0) (j 1)).trans ?_
  unfold rowsByColumns
  exact congrArg₂ (· + ·)
    (Finset.sum_congr rfl fun k _ => congrArg₂ (· * ·)
      (x_block V c t (j 0) k ((((cfg0.win 3).blk t).view.emb j) 0) hR)
      (w_block V c t k (j 1) ((((cfg0.win 3).blk t).view.emb j) 1) hC))
    (b_block V c t (j 1) ((((cfg0.win 3).blk t).view.emb j) 1) hC)

/-! ## The blocks tile the array -/

/-- An entry of the array is in point t's block iff each coordinate is in the block's range on its axis. -/
theorem mem_block (t : Fin cfg0.N) (i : S8192x3072.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v7).slice (win0_3.rect t)).set ↔ _
  rw [View.set_slice_whole, Rect.mem_set_unit]
  exact Iff.rfl

/-- Row r, column q is written back by the point 3·(r / 1024) + q / 1024; every point writes back. -/
theorem covered (i : S8192x3072.Idx) :
    ∃ t : Fin cfg0.N, (cfg0.win 3).flush t = true ∧ i ∈ ((cfg0.win 3).blk t).view.set := by
  have h0 : (i 0).val < 8192 := (i 0).isLt
  have h1 : (i 1).val < 3072 := (i 1).isLt
  have hN : cfg0.N = 24 := N_0
  obtain ⟨t, ht⟩ : ∃ t : Fin cfg0.N, t.val = 3 * ((i 0).val / 1024) + (i 1).val / 1024 :=
    ⟨⟨3 * ((i 0).val / 1024) + (i 1).val / 1024, by rw [hN]; omega⟩, rfl⟩
  obtain ⟨e0, e1, -⟩ := index_facts t
  refine ⟨t, flush0_3 t, ?_⟩
  rw [mem_block]
  intro a
  match a with
  | ⟨0, _⟩ =>
    show win0_3.index t 0 * 1024 ≤ (i 0).val ∧ (i 0).val < win0_3.index t 0 * 1024 + 1024
    rw [e0, ht]; omega
  | ⟨1, _⟩ =>
    show win0_3.index t 1 * 1024 ≤ (i 1).val ∧ (i 1).val < win0_3.index t 1 * 1024 + 1024
    rw [e1, ht]; omega

/-! ## The array after the call -/

/-- After the call the output array holds, at row r and column q, row r of x against column q of the weights plus the
    bias at q — of the arrays as the call finds them, whatever they are. -/
theorem projection_array (c : Dev nD) :
    (dat0 (F := Ideal) V c).arrAt 3 cfg0.N = rowsByColumns (V c main_v0) (V c main_v4) (V c main_v6) :=
  (dat0 V c).arrAt_eq_of_cover 3 (rowsByColumns (V c main_v0) (V c main_v4) (V c main_v6))
    (fun t _ => flushed_block V c t) covered

end Cert.KernelIdeal.ProjValue

end
-- ==== Proof.LibLeadingUnits.lean ====
/-
  Shape casts that drop or add two leading axes of extent one, read at an index written by coordinates.

  A shape cast keeps the row-major position of every element, and a coordinate on an axis of extent one is zero, so
  an array [1, 1, a, b] cast to [a, b] reads (i, j) at (u, v, i, j), and an array [a, b] cast to [1, 1, a, b] reads
  (u, v, i, j) at (i, j), whatever the unit coordinates u and v.
-/
import Idealize.ShloMosaic.Lib.ValueLayout

namespace Cert.LibLeadingUnits

open Idealize.ShloMosaic Idealize.ShloMosaic.ValueIdx

variable {α : Type}

/-- A [1, 1, a, b] array cast to [a, b] reads, at (i, j), the operand at (u, v, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (u v : Fin 1) (i : Fin a) (j : Fin b) :
    shapeCast ⟨2, ![a, b]⟩ x h (ix2 i j) = x (ix4 u v i j) :=
  shapeCast_apply x h _ _ (by
    have hu : u.val = 0 := by omega
    have hv : v.val = 0 := by omega
    rw [Shape.rowMajor_val_four, Shape.rowMajor_val_two]
    show ((u.val * 1 + v.val) * a + i.val) * b + j.val = i.val * b + j.val
    simp [hu, hv])

/-- An [a, b] array cast to [1, 1, a, b] reads, at (u, v, i, j), the operand at (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp [hu, hv])

end Cert.LibLeadingUnits
-- ==== Proof.KI.AttentionPayload.lean ====
/-
  The attention body's arithmetic, read at one entry of the output block, on the extended reals.

  With x0, x1, x2 the blocks of 512 query rows, 512 key rows and 512 value rows (each [1, 512, 1024]), x3 the
  512 × 512 tile of the mask ([1, 1, 512, 512]) and xo what the output block held, the body stores at (0, r, e)
      xo(0, r, e) + Σ_κ w(r, κ) · x2(0, κ, e),
      w(r, κ) = σ( σ( (Σ_d x0(0, r, d) · x1(0, κ, d)) · 2⁻⁵ ) · x3(0, 0, r, κ) ),       σ the logistic function.
  On the extended reals a rounding to a narrower format is the identity, a shape cast that drops or adds leading
  axes of extent one only renames the index, a transposed matrix reads its operand at the swapped index, and a
  matrix product into the zero accumulator is the plain sum of products. The zero block is 0 at every entry.
-/
import proofs.«174353_j19756849562253_1_alg».proof.Proof.Gen.KernelIdeal.Skeleton
import proofs.«174353_j19756849562253_1_alg».proof.Proof.LibPlainMatmul
import proofs.«174353_j19756849562253_1_alg».proof.Proof.LibLeadingUnits
import Idealize.ShloMosaic.Lib.ValueLayout
import Idealize.ShloMosaic.Lib.ValueIdx
import Idealize.ShloMosaic.PureOps.Ideal.Laws

noncomputable section

namespace Cert.KernelIdeal.AttnValue

open Cert.KernelIdeal Cert.KernelIdeal.Gen
open Idealize.ShloMosaic Idealize.ShloMosaic.ValueIdx

/-- The weight the body gives key row κ of its tile for query row r of its tile. -/
def tileWeight (x0 x1 : Vec Ideal S1x512x1024 .f32) (x3 : Vec Ideal S1x1x512x512 .f32) (r κ : Fin 512) : EReal :=
  Ideal.logistic (Ideal.logistic ((∑ d : Fin 1024, x0 (ix3 (0 : Fin 1) r d) * x1 (ix3 (0 : Fin 1) κ d))
    * Ideal.ofBits .f32 0x3D000000#32) * x3 (ix4 (0 : Fin 1) (0 : Fin 1) r κ))

/-- One key tile's contribution to the output block at (0, r, e). -/
def tileSum (x0 x1 x2 : Vec Ideal S1x512x1024 .f32) (x3 : Vec Ideal S1x1x512x512 .f32) (r : Fin 512) (e : Fin 1024) : EReal :=
  ∑ κ : Fin 512, tileWeight x0 x1 x3 r κ * x2 (ix3 (0 : Fin 1) κ e)

/-- The zero block is 0 at every entry. -/
theorem pay1_apply (r : Fin 512) (e : Fin 1024) : k1_pay1 (F := Ideal) (ix3 (0 : Fin 1) r e) = 0 := by
  unfold k1_pay1
  refine (shapeCast_ab_1ab_apply _ _ (0 : Fin 1) r e).trans ?_
  exact Ideal.ofBits_zero_f32

/-- The scores of the tile: query row r against key row κ, the key block transposed. -/
theorem scores_apply (x0 x1 : Vec Ideal S1x512x1024 .f32) (r κ : Fin 512) :
    (matmul dot_S512x1024_S1024x512_S512x512_1_0_0_1_n_n none
        (truncf .bf16 (shapeCast S512x1024 x0 shapeCasts_S1x512x1024_S512x1024) bitsLt_bf16_f32)
        (transpose S1024x512 [1, 0] (truncf .bf16 (shapeCast S512x1024 x1 shapeCasts_S1x512x1024_S512x1024) bitsLt_bf16_f32)
          transposes_S512x1024_p1_0_S1024x512)
        (constant S512x512 .f32 0x00000000#32) : FVec Ideal S512x512 .f32) (ix2 r κ)
      = ∑ d : Fin 1024, x0 (ix3 (0 : Fin 1) r d) * x1 (ix3 (0 : Fin 1) κ d) := by
  refine (PlainMatmul.apply_zero (M := 512) (K := 1024) (N := 512) _ _ r κ).trans ?_
  refine Finset.sum_congr rfl fun d _ => ?_
  refine congrArg₂ (· * ·) ?_ ?_
  · exact shapeCast_1ab_ab_apply x0 _ r d
  · refine (transpose_ix2_apply _ _ d κ).trans ?_
    exact shapeCast_1ab_ab_apply x1 _ κ d

/-- What the body stores, at (0, r, e): what the block held plus the tile's contribution. -/
theorem pay2_apply (x0 x1 x2 : Vec Ideal S1x512x1024 .f32) (x3 : Vec Ideal S1x1x512x512 .f32) (xo : Vec Ideal S1x512x1024 .f32)
    (r : Fin 512) (e : Fin 1024) :
    k1_pay2 (F := Ideal) x0 x1 x2 x3 xo (ix3 (0 : Fin 1) r e) = xo (ix3 (0 : Fin 1) r e) + tileSum x0 x1 x2 x3 r e := by
  unfold k1_pay2
  refine (shapeCast_ab_1ab_apply _ _ (0 : Fin 1) r e).trans ?_
  refine congrArg₂ (· + ·) ?_ ?_
  · exact shapeCast_1ab_ab_apply xo _ r e
  · refine (PlainMatmul.apply_zero (M := 512) (K := 512) (N := 1024) _ _ r e).trans ?_
    refine Finset.sum_congr rfl fun κ _ => ?_
    refine congrArg₂ (· * ·) ?_ ?_
    · show Ideal.logistic (Ideal.logistic (_ * Ideal.ofBits .f32 0x3D000000#32) * _) = _
      unfold tileWeight
      refine congrArg Ideal.logistic (congrArg₂ (· * ·) (congrArg Ideal.logistic (congrArg (· * Ideal.ofBits .f32 0x3D000000#32) ?_)) ?_)
      · exact scores_apply x0 x1 r κ
      · exact Cert.LibLeadingUnits.shapeCast_11ab_ab_apply x3 _ (0 : Fin 1) (0 : Fin 1) r κ
    · exact shapeCast_1ab_ab_apply x2 _ κ e

end Cert.KernelIdeal.AttnValue

end
-- ==== Proof.KI.AttentionBlocks.lean ====
/-
  The attention call's blocks as rows of the arrays, and one key tile's contribution as a sum of terms of the result.

  The grid is 2 × 8 × 8: point t = 64·n + 8·qi + ki works on batch n = t / 64, query tile qi = t / 8 mod 8 (rows
  512·qi … 512·qi + 511) and key tile ki = t mod 8. At that point the query block is rows of tile qi of batch n, the
  key and value blocks rows of tile ki, the mask block the (qi, ki) tile of batch n's mask, and the output block
  rows of tile qi of the result. An entry of a block sits in its array at block index × block extent + the
  coordinate inside the block, axis by axis; the block indices are decided once over the 128 points. So the tile's
  contribution at (0, r, e) is the sum over the 512 keys of tile ki of weight(n, 512·qi + r, key) · value(key, e),
  and every row of every batch lies in the output block of the last key tile of its query tile.
-/
import proofs.«174353_j19756849562253_1_alg».proof.Proof.KI.AttentionCall
import proofs.«174353_j19756849562253_1_alg».proof.Proof.KI.AttentionPayload
import proofs.«174353_j19756849562253_1_alg».proof.Proof.Spec
import Idealize.ShloMosaic.Lib.Pipeline.Value
import Idealize.ShloMosaic.Lib.ValueIdx

set_option maxRecDepth 16384

noncomputable section

namespace Cert.KernelIdeal.AttnValue

open Cert.KernelIdeal Cert.KernelIdeal.Gen Cert.KernelIdeal.Calls
open Idealize.ShloMosaic Idealize.ShloMosaic.TcCoe Idealize.ShloMosaic.ValueIdx
open Idealize.SL Idealize.SL.Sem
open Idealize.ShloMosaic.Pipeline (Dat)

/-! ## The result, and one term of its sum -/

/-- Key j's term of the result at (n, i, e): its weight for query i times its value row at e. -/
def term (q k v : S2x4096x1024.Idx → EReal) (M : S2x1x4096x4096.Idx → EReal) (n : Fin 2) (i j : Fin 4096) (e : Fin 1024) : EReal :=
  Cert.SigmoidAttention.weight (fun n i d => q (ValueIdx.ix3 n i d)) (fun n i d => k (ValueIdx.ix3 n i d)) M n i j * v (ValueIdx.ix3 n j e)

/-- Sigmoid attention of the queries q, keys k, values v under the mask M: at (n, i, e) the sum of all keys' terms. -/
def attend (q k v : S2x4096x1024.Idx → EReal) (M : S2x1x4096x4096.Idx → EReal) : S2x4096x1024.Idx → EReal := fun idx =>
  ∑ j : Fin 4096, Cert.SigmoidAttention.weight (fun n i d => q (ValueIdx.ix3 n i d)) (fun n i d => k (ValueIdx.ix3 n i d)) M (idx 0) (idx 1) j * v (ValueIdx.ix3 (idx 0) j (idx 2))

theorem attend_apply (q k v : S2x4096x1024.Idx → EReal) (M : S2x1x4096x4096.Idx → EReal) (n : Fin 2) (i : Fin 4096) (e : Fin 1024) :
    attend q k v M (ix3 n i e) = ∑ j : Fin 4096, term q k v M n i j e := rfl

/-! ## Points, batches and tiles -/

/-- The batch of a point: t / 64. -/
def bat (t : ℕ) : Fin 2 := ⟨(t / 64) % 2, Nat.mod_lt _ (by decide)⟩
/-- Row r of tile q (the tile number taken mod 8) among the 4096 rows: 512·q + r. -/
def tileRow (q : ℕ) (r : Fin 512) : Fin 4096 :=
  ⟨(q % 8) * 512 + r.val, by have := r.isLt; have := Nat.mod_lt q (show 0 < 8 by decide); omega⟩

theorem tileRow_congr {q q' : ℕ} (h : q % 8 = q' % 8) (r : Fin 512) : tileRow q r = tileRow q' r :=
  Fin.ext (by show (q % 8) * 512 + r.val = (q' % 8) * 512 + r.val; rw [h])

/-- The windows' block indices at point t, decided over the 128 points: batch t / 64, query tile t / 8 mod 8, key tile t mod 8. -/
theorem idx_facts : ∀ t : Fin cfg1.N,
    (win1_0.index t (0 : Fin 3) = t.val / 64 ∧ win1_0.index t (1 : Fin 3) = t.val / 8 % 8 ∧ win1_0.index t (2 : Fin 3) = 0)
    ∧ (win1_1.index t (0 : Fin 3) = t.val / 64 ∧ win1_1.index t (1 : Fin 3) = t.val % 8 ∧ win1_1.index t (2 : Fin 3) = 0)
    ∧ (win1_2.index t (0 : Fin 3) = t.val / 64 ∧ win1_2.index t (1 : Fin 3) = t.val % 8 ∧ win1_2.index t (2 : Fin 3) = 0)
    ∧ (win1_3.index t (0 : Fin 4) = t.val / 64 ∧ win1_3.index t (1 : Fin 4) = 0 ∧ win1_3.index t (2 : Fin 4) = t.val / 8 % 8 ∧ win1_3.index t (3 : Fin 4) = t.val % 8)
    ∧ (win1_4.index t (0 : Fin 3) = t.val / 64 ∧ win1_4.index t (1 : Fin 3) = t.val / 8 % 8 ∧ win1_4.index t (2 : Fin 3) = 0) :=
  (by decide +kernel : ∀ t : Fin grid1.N, _)

variable (V : (c : Dev nD) → (b : Ref sig .tc) → Buf (Elt Ideal) ((c : Thread nD τ).loc b))

/-! ## The blocks are rows of the arrays -/

/-- The query block at point t: rows of tile t / 8 of batch t / 64. -/
theorem blk0 (c : Dev nD) (t : Fin cfg1.N) (r : Fin 512) (d : Fin 1024) :
    iblk1 V c 0 t (ix3 (0 : Fin 1) r d) = V c main_v9 (ix3 (bat t.val) (tileRow (t.val / 8) r) d) := by
  obtain ⟨⟨e0, e1, e2⟩, -⟩ := idx_facts t
  have ht : t.val < 128 := lt_of_lt_of_eq t.isLt (show cfg1.N = 128 from N_1)
  unfold iblk1
  rw [View.read_apply]
  show V c main_v9 _ = V c main_v9 _
  refine congrArg (V c main_v9) ?_
  funext a
  apply Fin.ext
  match a with
  | ⟨0, _⟩ => show win1_0.index t (0 : Fin 3) * 1 + 1 * 0 = (t.val / 64) % 2; rw [e0]; omega
  | ⟨1, _⟩ => show win1_0.index t (1 : Fin 3) * 512 + 1 * r.val = (t.val / 8 % 8) * 512 + r.val; rw [e1]; omega
  | ⟨2, _⟩ => show win1_0.index t (2 : Fin 3) * 1024 + 1 * d.val = d.val; rw [e2]; omega

/-- The key block at point t: rows of tile t of batch t / 64. -/
theorem blk1 (c : Dev nD) (t : Fin cfg1.N) (κ : Fin 512) (d : Fin 1024) :
    iblk1 V c 1 t (ix3 (0 : Fin 1) κ d) = V c main_v10 (ix3 (bat t.val) (tileRow t.val κ) d) := by
  obtain ⟨-, ⟨e0, e1, e2⟩, -⟩ := idx_facts t
  have ht : t.val < 128 := lt_of_lt_of_eq t.isLt (show cfg1.N = 128 from N_1)
  unfold iblk1
  rw [View.read_apply]
  show V c main_v10 _ = V c main_v10 _
  refine congrArg (V c main_v10) ?_
  funext a
  apply Fin.ext
  match a with
  | ⟨0, _⟩ => show win1_1.index t (0 : Fin 3) * 1 + 1 * 0 = (t.val / 64) % 2; rw [e0]; omega
  | ⟨1, _⟩ => show win1_1.index t (1 : Fin 3) * 512 + 1 * κ.val = (t.val % 8) * 512 + κ.val; rw [e1]; omega
  | ⟨2, _⟩ => show win1_1.index t (2 : Fin 3) * 1024 + 1 * d.val = d.val; rw [e2]; omega

/-- The value block at point t: rows of tile t of batch t / 64. -/
theorem blk2 (c : Dev nD) (t : Fin cfg1.N) (κ : Fin 512) (e : Fin 1024) :
    iblk1 V c 2 t (ix3 (0 : Fin 1) κ e) = V c main_v11 (ix3 (bat t.val) (tileRow t.val κ) e) := by
  obtain ⟨-, -, ⟨e0, e1, e2⟩, -⟩ := idx_facts t
  have ht : t.val < 128 := lt_of_lt_of_eq t.isLt (show cfg1.N = 128 from N_1)
  unfold iblk1
  rw [View.read_apply]
  show V c main_v11 _ = V c main_v11 _
  refine congrArg (V c main_v11) ?_
  funext a
  apply Fin.ext
  match a with
  | ⟨0, _⟩ => show win1_2.index t (0 : Fin 3) * 1 + 1 * 0 = (t.val / 64) % 2; rw [e0]; omega
  | ⟨1, _⟩ => show win1_2.index t (1 : Fin 3) * 512 + 1 * κ.val = (t.val % 8) * 512 + κ.val; rw [e1]; omega
  | ⟨2, _⟩ => show win1_2.index t (2 : Fin 3) * 1024 + 1 * e.val = e.val; rw [e2]; omega

/-- The mask block at point t: the (t / 8, t) tile of batch t / 64. -/
theorem blk3 (c : Dev nD) (t : Fin cfg1.N) (r κ : Fin 512) :
    iblk1 V c 3 t (ix4 (0 : Fin 1) (0 : Fin 1) r κ) = V c main_arg1 (ix4 (bat t.val) (0 : Fin 1) (tileRow (t.val / 8) r) (tileRow t.val κ)) := by
  obtain ⟨-, -, -, ⟨e0, e1, e2, e3⟩, -⟩ := idx_facts t
  have ht : t.val < 128 := lt_of_lt_of_eq t.isLt (show cfg1.N = 128 from N_1)
  unfold iblk1
  rw [View.read_apply]
  show V c main_arg1 _ = V c main_arg1 _
  refine congrArg (V c main_arg1) ?_
  funext a
  apply Fin.ext
  match a with
  | ⟨0, _⟩ => show win1_3.index t (0 : Fin 4) * 1 + 1 * 0 = (t.val / 64) % 2; rw [e0]; omega
  | ⟨1, _⟩ => show win1_3.index t (1 : Fin 4) * 1 + 1 * 0 = 0; rw [e1]
  | ⟨2, _⟩ => show win1_3.index t (2 : Fin 4) * 512 + 1 * r.val = (t.val / 8 % 8) * 512 + r.val; rw [e2]; omega
  | ⟨3, _⟩ => show win1_3.index t (3 : Fin 4) * 512 + 1 * κ.val = (t.val % 8) * 512 + κ.val; rw [e3]; omega

/-- The tile's contribution at point t is the sum of the terms of the 512 keys of tile t. -/
theorem tile_eq (c : Dev nD) (t : Fin cfg1.N) (r : Fin 512) (e : Fin 1024) :
    tileSum (iblk1 V c 0 t) (iblk1 V c 1 t) (iblk1 V c 2 t) (iblk1 V c 3 t) r e
      = ∑ κ : Fin 512, term (V c main_v9) (V c main_v10) (V c main_v11) (V c main_arg1) (bat t.val) (tileRow (t.val / 8) r) (tileRow t.val κ) e := by
  unfold tileSum
  refine Finset.sum_congr rfl fun κ _ => ?_
  unfold tileWeight term Cert.SigmoidAttention.weight Cert.SigmoidAttention.score
  refine congrArg₂ (· * ·) ?_ (blk2 V c t κ e)
  refine congrArg Ideal.logistic (congrArg₂ (· * ·) (congrArg Ideal.logistic (congrArg (· * Ideal.ofBits .f32 0x3D000000#32) ?_)) (blk3 V c t r κ))
  exact Finset.sum_congr rfl fun d _ => congrArg₂ (· * ·) (blk0 V c t r d) (blk1 V c t κ d)

/-! ## The output block in the result array, and the cover -/

/-- Where the output block of point t sits in the result array: rows of tile t / 8 of batch t / 64. -/
theorem out_emb (t : Fin cfg1.N) (r : Fin 512) (e : Fin 1024) :
    ((cfg1.win 4).blk t).view.emb (ix3 (0 : Fin 1) r e) = ix3 (bat t.val) (tileRow (t.val / 8) r) e := by
  obtain ⟨-, -, -, -, ⟨e0, e1, e2⟩⟩ := idx_facts t
  have ht : t.val < 128 := lt_of_lt_of_eq t.isLt (show cfg1.N = 128 from N_1)
  funext a
  apply Fin.ext
  match a with
  | ⟨0, _⟩ => show win1_4.index t (0 : Fin 3) * 1 + 1 * 0 = (t.val / 64) % 2; rw [e0]; omega
  | ⟨1, _⟩ => show win1_4.index t (1 : Fin 3) * 512 + 1 * r.val = (t.val / 8 % 8) * 512 + r.val; rw [e1]; omega
  | ⟨2, _⟩ => show win1_4.index t (2 : Fin 3) * 1024 + 1 * e.val = e.val; rw [e2]; omega

/-- Every entry of the result array is in the block of a point that writes back: row s of batch n in the block of the
    last key tile of query tile s / 512. -/
theorem cover (i : S2x4096x1024.Idx) :
    ∃ t : Fin cfg1.N, (cfg1.win 4).flush t = true ∧ i ∈ ((cfg1.win 4).blk t).view.set := by
  have h0 : (i 0).val < 2 := (i 0).isLt
  have h1 : (i 1).val < 4096 := (i 1).isLt
  have h2 : (i 2).val < 1024 := (i 2).isLt
  have hN : cfg1.N = 128 := N_1
  let t : Fin cfg1.N := ⟨64 * (i 0).val + 8 * ((i 1).val / 512) + 7, by rw [hN]; omega⟩
  have htv : t.val = 64 * (i 0).val + 8 * ((i 1).val / 512) + 7 := rfl
  obtain ⟨-, -, -, -, ⟨e0, e1, e2⟩⟩ := idx_facts t
  refine ⟨t, (flush1_4 t).mpr (by rw [htv]; omega), ?_⟩
  show i ∈ ((View.whole main_v12).slice (win1_4.rect t)).set
  rw [View.set_slice_whole, Rect.mem_set_unit]
  intro a
  match a with
  | ⟨0, _⟩ => show win1_4.index t (0 : Fin 3) * 1 ≤ (i 0).val ∧ (i 0).val < win1_4.index t (0 : Fin 3) * 1 + 1; rw [e0, htv]; omega
  | ⟨1, _⟩ => show win1_4.index t (1 : Fin 3) * 512 ≤ (i 1).val ∧ (i 1).val < win1_4.index t (1 : Fin 3) * 512 + 512; rw [e1, htv]; omega
  | ⟨2, _⟩ => show win1_4.index t (2 : Fin 3) * 1024 ≤ (i 2).val ∧ (i 2).val < win1_4.index t (2 : Fin 3) * 1024 + 1024; rw [e2]; omega

end Cert.KernelIdeal.AttnValue

end
-- ==== Proof.KI.AttentionPieces.lean ====
/-
  What each way through the attention body leaves in the output block, as a value.

  At a later key tile the body's one store covers the whole block, so the block ends at that store's payload: the
  tile's contribution added to what the block held. At a first key tile two stores cover the block, the zeros and
  then the sum; the last one wins, and the load between them reads the zeros back, so the block ends at the tile's
  contribution added to the zero block. The loads read the whole staging buffers, so each loaded value is the
  buffer's contents.
-/
import proofs.«174353_j19756849562253_1_alg».proof.Proof.KI.AttentionCall
import Idealize.ShloMosaic.Lib.Pipeline.Value
import Idealize.ShloMosaic.Lib.Tactic

set_option maxRecDepth 16384

noncomputable section

namespace Cert.KernelIdeal.AttnValue

open Cert.KernelIdeal Cert.KernelIdeal.Gen Cert.KernelIdeal.Calls
open Idealize.ShloMosaic Idealize.ShloMosaic.TcCoe Idealize.ShloMosaic.Tactic
open Idealize.SL Idealize.SL.Sem

variable {F : FTy → Type} [FloatOps F]

/-- The zero offsets of a rank-3 block, however spelt. -/
theorem hz3 : (![0, 0, 0] : Fin 3 → Nat) = fun _ => 0 := funext fun a => by
  match a with | ⟨0, _⟩ => rfl | ⟨1, _⟩ => rfl | ⟨2, _⟩ => rfl
/-- The zero offsets of a rank-4 block. -/
theorem hz4 : (![0, 0, 0, 0] : Fin 4 → Nat) = fun _ => 0 := funext fun a => by
  match a with | ⟨0, _⟩ => rfl | ⟨1, _⟩ => rfl | ⟨2, _⟩ => rfl | ⟨3, _⟩ => rfl

/-- A later key tile leaves the tile's contribution added to the running contents. -/
theorem out_B (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S1x512x1024 .f32) (harg5 : arg5.IsWhole)
    (arg6 : Memref sig .tc .vmem S1x1x512x512 .f32) (harg6 : arg6.IsWhole) (arg7 : Memref sig .tc .vmem S1x512x1024 .f32) (harg7 : arg7.IsWhole)
    (hc0 : ¬cond1_0 i) (x0 x1 x2 : Vec F S1x512x1024 .f32) (x3 : Vec F S1x1x512x512 .f32) (xo4 : Vec F S1x512x1024 .f32) :
    out1_B_4 c i arg3 harg3 arg4 harg4 arg5 harg5 arg6 harg6 arg7 harg7 hc0 x0 x1 x2 x3 xo4 = k1_pay2 x0 x1 x2 x3 xo4 := by
  unfold out1_B_4
  rw [View.read_writes_eq_canon _ _ _ (cover1_B_4 c i arg3 harg3 arg4 harg4 arg5 harg5 arg6 harg6 arg7 harg7 hc0 x0 x1 x2 x3 xo4)]
  unfold kernelRun1_B
  dsimp only
  sl_unfold_words
  rw [View.canon_unit_zero (S := S1x512x1024) hz3]
  simp only [View.readAt_eq_ld, harg3.read_unread, harg4.read_unread, harg5.read_unread, harg6.read_unread, harg7.read_unread,
    View.ld_unit_zero (S := S1x512x1024) hz3, View.ld_unit_zero (S := S1x1x512x512) hz4]

/-- A first key tile leaves the tile's contribution added to the zero block. -/
theorem out_A (c : Dev nD) (i : grid1.Coords) (arg3 : Memref sig .tc .vmem S1x512x1024 .f32) (harg3 : arg3.IsWhole)
    (arg4 : Memref sig .tc .vmem S1x512x1024 .f32) (harg4 : arg4.IsWhole) (arg5 : Memref sig .tc .vmem S1x512x1024 .f32) (harg5 : arg5.IsWhole)
    (arg6 : Memref sig .tc .vmem S1x1x512x512 .f32) (harg6 : arg6.IsWhole) (arg7 : Memref sig .tc .vmem S1x512x1024 .f32) (harg7 : arg7.IsWhole)
    (hc0 : cond1_0 i) (x0 x1 x2 : Vec F S1x512x1024 .f32) (x3 : Vec F S1x1x512x512 .f32) :
    out1_A_4 c i arg3 harg3 arg4 harg4 arg5 harg5 arg6 harg6 arg7 harg7 hc0 x0 x1 x2 x3 = k1_pay2 x0 x1 x2 x3 (k1_pay1 (F := F)) := by
  unfold out1_A_4
  rw [View.read_writes_eq_canon _ _ _ (cover1_A_4 c i arg3 harg3 arg4 harg4 arg5 harg5 arg6 harg6 arg7 harg7 hc0 x0 x1 x2 x3)]
  unfold kernelRun1_A
  dsimp only
  sl_unfold_words
  rw [View.canon_cons_unit_zero (S := S1x512x1024) hz3, View.readCov_unit_zero (S := S1x512x1024) _ hz3]
  simp only [View.readAt_eq_ld, harg3.read_unread, harg4.read_unread, harg5.read_unread, harg6.read_unread,
    View.ld_unit_zero (S := S1x512x1024) hz3, View.ld_unit_zero (S := S1x1x512x512) hz4]

end Cert.KernelIdeal.AttnValue

end
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.KI.AttentionValue.lean ====
/-
  The attention call's result array, as one function of the arrays it reads.

  By induction on the point, after point t = 64·n + 8·qi + ki the output block holds, at (0, r, e), the sum of the
  contributions of key tiles 0 … ki: a first key tile starts from the zero block, a later one adds its
  contribution to what the point before left. The block is written back after key tile 7, when it holds all eight
  contributions, that is the sum over all 4096 keys: sums on the extended reals are sums in a commutative monoid,
  so splitting the 4096 keys into 8 tiles of 512 asks nothing of the summands. Every entry of the result array
  lies in the block of such a point, so the array ends holding the attention of the arrays the call found.
-/
import proofs.«174353_j19756849562253_1_alg».proof.Proof.KI.AttentionBlocks
import proofs.«174353_j19756849562253_1_alg».proof.Proof.KI.AttentionPieces
import proofs.«174353_j19756849562253_1_alg».proof.Proof.LibBlockSums

set_option maxRecDepth 16384

noncomputable section

namespace Cert.KernelIdeal.AttnValue

open Cert.KernelIdeal Cert.KernelIdeal.Gen Cert.KernelIdeal.Calls
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The accumulation over the key tiles -/

/-- After point t the output block holds, at (0, r, e), the terms of the keys of tiles 0 … t mod 8. -/
theorem outsAt_eq (c : Dev nD) : ∀ (t : ℕ) (ht : t < cfg1.N) (r : Fin 512) (e : Fin 1024),
    outsAt1 V c t ht (ix3 (0 : Fin 1) r e)
      = ∑ a ∈ Finset.range (t % 8 + 1), ∑ κ : Fin 512, term (V c main_v9) (V c main_v10) (V c main_v11) (V c main_arg1) (bat t) (tileRow (t / 8) r) (tileRow a κ) e := by
  intro t
  induction t using Nat.strong_induction_on with
  | _ t ih =>
    intro ht r e
    by_cases h0 : t % 8 = 0
    · refine (congrFun (outsAt1_A V c ⟨t, ht⟩ h0) (ix3 (0 : Fin 1) r e)).trans ?_
      refine (congrFun (out_A (F := Ideal) c (grid1.coords ⟨t, ht⟩) (ms1_0 ⟨t, ht⟩) (hs1_0 ⟨t, ht⟩) (ms1_1 ⟨t, ht⟩) (hs1_1 ⟨t, ht⟩) (ms1_2 ⟨t, ht⟩) (hs1_2 ⟨t, ht⟩) (ms1_3 ⟨t, ht⟩) (hs1_3 ⟨t, ht⟩) (ms1_4 ⟨t, ht⟩) (hs1_4 ⟨t, ht⟩) ((hcond1_0 ⟨t, ht⟩).mpr h0)
        (iblk1 V c 0 ⟨t, ht⟩) (iblk1 V c 1 ⟨t, ht⟩) (iblk1 V c 2 ⟨t, ht⟩) (iblk1 V c 3 ⟨t, ht⟩)) (ix3 (0 : Fin 1) r e)).trans ?_
      refine (pay2_apply (iblk1 V c 0 ⟨t, ht⟩) (iblk1 V c 1 ⟨t, ht⟩) (iblk1 V c 2 ⟨t, ht⟩) (iblk1 V c 3 ⟨t, ht⟩) (k1_pay1 (F := Ideal)) r e).trans ?_
      refine (congrArg₂ (· + ·) (pay1_apply r e) (tile_eq V c ⟨t, ht⟩ r e)).trans ?_
      refine (zero_add _).trans ?_
      have hs : Finset.range (t % 8 + 1) = {0} := by rw [h0]; rfl
      rw [hs, Finset.sum_singleton]
      refine Finset.sum_congr rfl fun κ _ => ?_
      exact congrArg (fun j => term (V c main_v9) (V c main_v10) (V c main_v11) (V c main_arg1) (bat t) (tileRow (t / 8) r) j e) (tileRow_congr (q := t) (q' := 0) (by omega) κ)
    · have ht1 : t - 1 < t := by omega
      have hlt : t - 1 < cfg1.N := Nat.lt_of_le_of_lt (Nat.sub_le _ _) ht
      refine (congrFun (outsAt1_B V c ⟨t, ht⟩ h0) (ix3 (0 : Fin 1) r e)).trans ?_
      refine (congrFun (out_B (F := Ideal) c (grid1.coords ⟨t, ht⟩) (ms1_0 ⟨t, ht⟩) (hs1_0 ⟨t, ht⟩) (ms1_1 ⟨t, ht⟩) (hs1_1 ⟨t, ht⟩) (ms1_2 ⟨t, ht⟩) (hs1_2 ⟨t, ht⟩) (ms1_3 ⟨t, ht⟩) (hs1_3 ⟨t, ht⟩) (ms1_4 ⟨t, ht⟩) (hs1_4 ⟨t, ht⟩) (fun h => h0 ((hcond1_0 ⟨t, ht⟩).mp h))
        (iblk1 V c 0 ⟨t, ht⟩) (iblk1 V c 1 ⟨t, ht⟩) (iblk1 V c 2 ⟨t, ht⟩) (iblk1 V c 3 ⟨t, ht⟩) (outsAt1 V c (t - 1) hlt)) (ix3 (0 : Fin 1) r e)).trans ?_
      refine (pay2_apply (iblk1 V c 0 ⟨t, ht⟩) (iblk1 V c 1 ⟨t, ht⟩) (iblk1 V c 2 ⟨t, ht⟩) (iblk1 V c 3 ⟨t, ht⟩) (outsAt1 V c (t - 1) hlt) r e).trans ?_
      refine (congrArg₂ (· + ·) (ih (t - 1) ht1 hlt r e) (tile_eq V c ⟨t, ht⟩ r e)).trans ?_
      have e1 : (t - 1) % 8 + 1 = t % 8 := by omega
      have e2 : bat (t - 1) = bat t := Fin.ext (by show (t - 1) / 64 % 2 = t / 64 % 2; omega)
      have e3 : tileRow ((t - 1) / 8) r = tileRow (t / 8) r := tileRow_congr (by omega) r
      rw [e1, e2, e3, Finset.sum_range_succ]
      refine congrArg (_ + ·) ?_
      refine Finset.sum_congr rfl fun κ _ => ?_
      exact congrArg (fun j => term (V c main_v9) (V c main_v10) (V c main_v11) (V c main_arg1) (bat t) (tileRow (t / 8) r) j e) (tileRow_congr (q := t) (q' := t % 8) (by omega) κ)

/-! ## The write-back and the array -/

/-- The eight tiles' terms are all 4096 keys' terms. -/
theorem sum_tiles (f : Fin 4096 → EReal) :
    ∑ a ∈ Finset.range (7 + 1), ∑ κ : Fin 512, f (tileRow a κ) = ∑ j : Fin 4096, f j := by
  rw [BlockSums.sum_blocks (m := 8) (n := 512) (N := 4096) rfl (fun a κ => tileRow a.val κ)
    (fun a κ => by show (a.val % 8) * 512 + κ.val = a.val * 512 + κ.val; rw [Nat.mod_eq_of_lt a.isLt]) f]
  exact Finset.sum_range fun a => ∑ κ : Fin 512, f (tileRow a κ)

/-- What a point that writes back writes: its block of the attention of the arrays. -/
theorem flushed_eq (c : Dev nD) (t : Fin cfg1.N) (hf : (cfg1.win 4).flush t = true) :
    (dat1 (F := Ideal) V c).flushed 4 t = ((cfg1.win 4).blk t).view.read (Elt Ideal) (attend (V c main_v9) (V c main_v10) (V c main_v11) (V c main_arg1)) := by
  have h7 : t.val % 8 = 7 := (flush1_4 t).mp hf
  show (cfg1.win 4).cut (grid1.coords t) ((dat1 (F := Ideal) V c).after 4 t) = _
  rw [after1_4]
  funext y
  obtain ⟨u, r, e, rfl⟩ : ∃ (u : Fin 1) (r : Fin 512) (e : Fin 1024), y = ix3 u r e := ⟨y 0, y 1, y 2, eq_ix3 y⟩
  obtain rfl : u = 0 := Subsingleton.elim _ _
  show outsAt1 V c t.val t.isLt (ix3 (0 : Fin 1) r e) = attend (V c main_v9) (V c main_v10) (V c main_v11) (V c main_arg1) (((cfg1.win 4).blk t).view.emb (ix3 (0 : Fin 1) r e))
  rw [out_emb t r e, attend_apply, outsAt_eq V c t.val t.isLt r e, h7]
  exact sum_tiles fun j => term (V c main_v9) (V c main_v10) (V c main_v11) (V c main_arg1) (bat t.val) (tileRow (t.val / 8) r) j e

/-- After the call the result array holds the attention of the arrays the call found. -/
theorem attention_array (c : Dev nD) :
    (dat1 (F := Ideal) V c).arrAt 4 cfg1.N = attend (V c main_v9) (V c main_v10) (V c main_v11) (V c main_arg1) :=
  (dat1 (F := Ideal) V c).arrAt_eq_of_cover 4 (attend (V c main_v9) (V c main_v10) (V c main_v11) (V c main_arg1)) (flushed_eq V c) (cover)

end Cert.KernelIdeal.AttnValue

end
-- ==== Proof.KI.KernelValue.lean ====
/-
  The kernel's result array, at the exact values, is the specification's function of the arguments.

  The attention call leaves in the result array the weighted sums over all 4096 keys of its three input arrays and the
  mask; those three arrays are the three column bands of the projection call's product, which are the three projections
  of the hidden states; the mask is the argument itself. Put together this is the specification, index by index.
-/
import proofs.«174353_j19756849562253_1_alg».proof.Proof.KI.HostValue
import proofs.«174353_j19756849562253_1_alg».proof.Proof.KI.ProjectionValue
import proofs.«174353_j19756849562253_1_alg».proof.Proof.KI.AttentionValue
import proofs.«174353_j19756849562253_1_alg».proof.Proof.Spec

noncomputable section

namespace Cert.KernelIdeal.KernelValue

open Cert.KernelIdeal Cert.KernelIdeal.Gen Cert.KernelIdeal.Calls
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

theorem kernel_result (c : Dev nD) :
    (dat1 (F := Ideal) (bufIn1 m ρ) c).arrAt 4 cfg1.N
      = Cert.SigmoidAttention.result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  have hP : HostValue.Product m ρ c := ProjValue.projection_array (bufIn0 m ρ) c
  rw [AttnValue.attention_array (bufIn1 m ρ) c, HostValue.queries m ρ c hP, HostValue.keys m ρ c hP, HostValue.values m ρ c hP,
    HostValue.mask m ρ c]
  rfl

end Cert.KernelIdeal.KernelValue

end
-- ==== Proof.RefIsSpec.lean ====
/-
  The reference program computes the common specification.

  Read one operation at a time, the reference's result at (n, i, e) is the sum over the key row j of
      w(n, i, j) · v(n, j, e),
  where v = x·Wvᵀ + bv is a projection, and w(n, i, j) is the quotient 1 / (1 + exp(-t)) taken at
      t = (1 / (1 + exp(-(s / sqrt 1024)))) · M(n, 0, i, j),        s = Σ_d q(n, i, d) · k(n, j, d),
  with q and k the other two projections. Each projection adds to a row-against-row product of x and W the bias,
  which the program first spreads over the whole array; the mask is read through a reshape that only drops its
  unit axis. So three things are checked: that each index the program computes is the plain coordinate index
  (for the reshape, that dividing the flat position (n·4096 + i)·4096 + j back gives n, i and j); that the
  spelled-out quotient is the logistic function; and that dividing by sqrt 1024 = 32 is multiplying by 2⁻⁵.
  The last two hold at every extended real, so nothing is asked of the inputs.
-/
import proofs.«174353_j19756849562253_1_alg».proof.Proof.Gen.ReferenceIdeal.Read
import proofs.«174353_j19756849562253_1_alg».proof.Proof.Spec
import Idealize.ShloMosaic.PureOps.IdealRules

noncomputable section

namespace Cert.SigmoidAttention.Ref

open Idealize.ShloMosaic Idealize.ShloMosaic.ValueIdx Cert.ReferenceIdeal Cert.ReferenceIdeal.Read

/-! ## The float words -/

/-- The word 0x3F800000 denotes 1. -/
theorem word_one : Ideal.ofBits .f32 0x3F800000#32 = 1 :=
  IdealRules.sign_bit.ideal_onePat .f32

/-- The word 0x44800000 denotes 1024 = 2^10. -/
theorem word_1024 : Ideal.ofBits .f32 0x44800000#32 = ((1024 : ℝ) : EReal) := by
  simp [Ideal.ofBits, Ideal.ieee, -EReal.coe_mul]; norm_num

/-- The word 0x3D000000 denotes 1/32 = 2^-5. -/
theorem word_inv32 : Ideal.ofBits .f32 0x3D000000#32 = ((1 / 32 : ℝ) : EReal) := by
  simp [Ideal.ofBits, Ideal.ieee, -EReal.coe_mul]; norm_num

/-- The square root of 1024 is 32, since 1024 = 32 · 32. -/
theorem sqrt_1024 : Ideal.sqrt ((1024 : ℝ) : EReal) = ((32 : ℝ) : EReal) := by
  rw [Ideal.sqrt_coe, if_neg (by norm_num)]
  refine congrArg _ ?_
  rw [show (1024 : ℝ) = 32 * 32 by norm_num]
  exact Real.sqrt_mul_self (by norm_num)

/-- The quotient 1 / (1 + exp (-g)), with 1 spelled by its word, is the logistic function of g: the logistic
    function is defined as that quotient. -/
theorem spelled_logistic (g : EReal) :
    Ideal.div (Ideal.ofBits .f32 0x3F800000#32) (Ideal.ofBits .f32 0x3F800000#32 + Ideal.exp (-g)) = Ideal.logistic g := by
  rw [word_one]; rfl

/-- Dividing by sqrt(1024.0) is multiplying by 2⁻⁵, at every extended real: the divisor is the nonzero real 32. -/
theorem div_sqrt_1024 (s : EReal) :
    Ideal.div s (Ideal.sqrt (Ideal.ofBits .f32 0x44800000#32)) = s * Ideal.ofBits .f32 0x3D000000#32 := by
  rw [word_1024, sqrt_1024, word_inv32]
  exact Ideal.div_coe (by norm_num) s

/-! ## The three projections -/

/-- The queries: x·Wqᵀ + bq at (n, s, e). -/
theorem ref_q (x0 : (⟨Cert.ReferenceIdeal.S2x4096x1024, .f32⟩ : BufTy).Contents (Elt Ideal)) (x2 : (⟨Cert.ReferenceIdeal.S1024x1024, .f32⟩ : BufTy).Contents (Elt Ideal)) (x3 : (⟨Cert.ReferenceIdeal.S1024, .f32⟩ : BufTy).Contents (Elt Ideal))
    (n : Fin 2) (s : Fin 4096) (e : Fin 1024) :
    val_main_v3 (F := Ideal) x0 x2 x3 (ix3 n s e) = proj x0 x2 x3 n s e := by
  have hl : ∀ d : Fin 1024, lidx_main_v0 (ix3 n s e) d = ix3 n s d := fun d => funext fun a => Fin.ext (by
    match a with | ⟨0, _⟩ => rfl | ⟨1, _⟩ => rfl | ⟨2, _⟩ => rfl)
  have hr : ∀ d : Fin 1024, ridx_main_v0 (ix3 n s e) d = ix2 e d := fun d => funext fun a => Fin.ext (by
    match a with | ⟨0, _⟩ => rfl | ⟨1, _⟩ => rfl)
  have hb : idx_main_v1 (idx_main_v2 (ix3 n s e)) = ix1 e := funext fun a => Fin.ext (by
    match a with | ⟨0, _⟩ => rfl)
  rw [val_main_v3_apply, val_main_v0_apply, val_main_v2_apply, val_main_v1_apply, hb]
  simp only [hl, hr, Ideal.addf_def]
  rfl

/-- The keys: x·Wkᵀ + bk at (n, s, e). -/
theorem ref_k (x0 : (⟨Cert.ReferenceIdeal.S2x4096x1024, .f32⟩ : BufTy).Contents (Elt Ideal)) (x4 : (⟨Cert.ReferenceIdeal.S1024x1024, .f32⟩ : BufTy).Contents (Elt Ideal)) (x5 : (⟨Cert.ReferenceIdeal.S1024, .f32⟩ : BufTy).Contents (Elt Ideal))
    (n : Fin 2) (s : Fin 4096) (e : Fin 1024) :
    val_main_v7 (F := Ideal) x0 x4 x5 (ix3 n s e) = proj x0 x4 x5 n s e := by
  have hl : ∀ d : Fin 1024, lidx_main_v4 (ix3 n s e) d = ix3 n s d := fun d => funext fun a => Fin.ext (by
    match a with | ⟨0, _⟩ => rfl | ⟨1, _⟩ => rfl | ⟨2, _⟩ => rfl)
  have hr : ∀ d : Fin 1024, ridx_main_v4 (ix3 n s e) d = ix2 e d := fun d => funext fun a => Fin.ext (by
    match a with | ⟨0, _⟩ => rfl | ⟨1, _⟩ => rfl)
  have hb : idx_main_v5 (idx_main_v6 (ix3 n s e)) = ix1 e := funext fun a => Fin.ext (by
    match a with | ⟨0, _⟩ => rfl)
  rw [val_main_v7_apply, val_main_v4_apply, val_main_v6_apply, val_main_v5_apply, hb]
  simp only [hl, hr, Ideal.addf_def]
  rfl

/-- The values: x·Wvᵀ + bv at (n, s, e). -/
theorem ref_v (x0 : (⟨Cert.ReferenceIdeal.S2x4096x1024, .f32⟩ : BufTy).Contents (Elt Ideal)) (x6 : (⟨Cert.ReferenceIdeal.S1024x1024, .f32⟩ : BufTy).Contents (Elt Ideal)) (x7 : (⟨Cert.ReferenceIdeal.S1024, .f32⟩ : BufTy).Contents (Elt Ideal))
    (n : Fin 2) (s : Fin 4096) (e : Fin 1024) :
    val_main_v11 (F := Ideal) x0 x6 x7 (ix3 n s e) = proj x0 x6 x7 n s e := by
  have hl : ∀ d : Fin 1024, lidx_main_v8 (ix3 n s e) d = ix3 n s d := fun d => funext fun a => Fin.ext (by
    match a with | ⟨0, _⟩ => rfl | ⟨1, _⟩ => rfl | ⟨2, _⟩ => rfl)
  have hr : ∀ d : Fin 1024, ridx_main_v8 (ix3 n s e) d = ix2 e d := fun d => funext fun a => Fin.ext (by
    match a with | ⟨0, _⟩ => rfl | ⟨1, _⟩ => rfl)
  have hb : idx_main_v9 (idx_main_v10 (ix3 n s e)) = ix1 e := funext fun a => Fin.ext (by
    match a with | ⟨0, _⟩ => rfl)
  rw [val_main_v11_apply, val_main_v8_apply, val_main_v10_apply, val_main_v9_apply, hb]
  simp only [hl, hr, Ideal.addf_def]
  rfl

/-! ## The score, the mask and the weight -/

/-- The score of query row i against key row j: the inner product of the two projected rows. -/
theorem ref_score (x0 : (⟨Cert.ReferenceIdeal.S2x4096x1024, .f32⟩ : BufTy).Contents (Elt Ideal)) (x2 : (⟨Cert.ReferenceIdeal.S1024x1024, .f32⟩ : BufTy).Contents (Elt Ideal)) (x3 : (⟨Cert.ReferenceIdeal.S1024, .f32⟩ : BufTy).Contents (Elt Ideal))
    (x4 : (⟨Cert.ReferenceIdeal.S1024x1024, .f32⟩ : BufTy).Contents (Elt Ideal)) (x5 : (⟨Cert.ReferenceIdeal.S1024, .f32⟩ : BufTy).Contents (Elt Ideal)) (n : Fin 2) (i j : Fin 4096) :
    val_main_v13 (F := Ideal) x0 x2 x3 x4 x5 (ix3 n i j) = score (proj x0 x2 x3) (proj x0 x4 x5) n i j := by
  have hl : ∀ d : Fin 1024, lidx_main_v13 (ix3 n i j) d = ix3 n i d := fun d => funext fun a => Fin.ext (by
    match a with | ⟨0, _⟩ => rfl | ⟨1, _⟩ => rfl | ⟨2, _⟩ => rfl)
  have hr : ∀ d : Fin 1024, ridx_main_v13 (ix3 n i j) d = ix3 n j d := fun d => funext fun a => Fin.ext (by
    match a with | ⟨0, _⟩ => rfl | ⟨1, _⟩ => rfl | ⟨2, _⟩ => rfl)
  rw [val_main_v13_apply]
  simp only [hl, hr, ref_q, ref_k]
  rfl

/-- The reshape drops the mask's unit axis: the flat position (n·4096 + i)·4096 + j of (n, i, j) is the flat
    position of (n, 0, i, j), so dividing it back gives n, i and j. -/
theorem ref_mask (x1 : (⟨Cert.ReferenceIdeal.S2x1x4096x4096, .f32⟩ : BufTy).Contents (Elt Ideal)) (n : Fin 2) (i j : Fin 4096) :
    val_main_v22 (F := Ideal) x1 (ix3 n i j) = x1 (ix4 n (0 : Fin 1) i j) := by
  have hn : n.val < 2 := n.isLt
  have hi : i.val < 4096 := i.isLt
  have hj : j.val < 4096 := j.isLt
  have hm : idx_main_v22 (ix3 n i j) = ix4 n (0 : Fin 1) i j := funext fun a => Fin.ext (by
    match a with
    | ⟨0, _⟩ => show ((n.val * 4096 + i.val) * 4096 + j.val) / 16777216 = n.val; omega
    | ⟨1, _⟩ => rfl
    | ⟨2, _⟩ => show ((n.val * 4096 + i.val) * 4096 + j.val) / 4096 % 4096 = i.val; omega
    | ⟨3, _⟩ => show ((n.val * 4096 + i.val) * 4096 + j.val) % 4096 = j.val; omega)
  rw [val_main_v22_apply, hm]

/-- The weight of key j for query i: the logistic of the scaled score, times the mask, through the logistic again. -/
theorem ref_weight (x0 : (⟨Cert.ReferenceIdeal.S2x4096x1024, .f32⟩ : BufTy).Contents (Elt Ideal)) (x1 : (⟨Cert.ReferenceIdeal.S2x1x4096x4096, .f32⟩ : BufTy).Contents (Elt Ideal)) (x2 : (⟨Cert.ReferenceIdeal.S1024x1024, .f32⟩ : BufTy).Contents (Elt Ideal))
    (x3 : (⟨Cert.ReferenceIdeal.S1024, .f32⟩ : BufTy).Contents (Elt Ideal)) (x4 : (⟨Cert.ReferenceIdeal.S1024x1024, .f32⟩ : BufTy).Contents (Elt Ideal)) (x5 : (⟨Cert.ReferenceIdeal.S1024, .f32⟩ : BufTy).Contents (Elt Ideal)) (n : Fin 2) (i j : Fin 4096) :
    val_main_v29 (F := Ideal) x0 x1 x2 x3 x4 x5 (ix3 n i j)
      = weight (proj x0 x2 x3) (proj x0 x4 x5) x1 n i j := by
  rw [val_main_v29_apply, val_main_v28_apply, val_main_cst_3_apply, val_main_v27_apply, val_main_v26_apply,
    val_main_cst_2_apply, val_main_v25_apply, val_main_v24_apply, val_main_v23_apply, val_main_v21_apply,
    val_main_v20_apply, val_main_cst_1_apply, val_main_v19_apply, val_main_v18_apply, val_main_cst_0_apply,
    val_main_v17_apply, val_main_v16_apply, val_main_v15_apply, val_main_v14_apply, val_main_v12_apply,
    val_main_cst_apply, ref_score, ref_mask]
  simp only [Ideal.hostDivf_def, Ideal.hostNegf_def, Ideal.negf_def, Ideal.hostUnary_exp_def, Ideal.hostUnary_sqrt_def,
    Ideal.addf_def, Ideal.mulf_def, Ideal.ofBits_def]
  rw [div_sqrt_1024, spelled_logistic, spelled_logistic]
  rfl

/-! ## The result -/

/-- The reference's result is the specification's: at (n, i, e), the weighted sum of the value rows. -/
theorem reference_is_result
    (x0 : (⟨Cert.ReferenceIdeal.S2x4096x1024, .f32⟩ : BufTy).Contents (Elt Ideal)) (x1 : (⟨Cert.ReferenceIdeal.S2x1x4096x4096, .f32⟩ : BufTy).Contents (Elt Ideal))
    (x2 : (⟨Cert.ReferenceIdeal.S1024x1024, .f32⟩ : BufTy).Contents (Elt Ideal)) (x3 : (⟨Cert.ReferenceIdeal.S1024, .f32⟩ : BufTy).Contents (Elt Ideal))
    (x4 : (⟨Cert.ReferenceIdeal.S1024x1024, .f32⟩ : BufTy).Contents (Elt Ideal)) (x5 : (⟨Cert.ReferenceIdeal.S1024, .f32⟩ : BufTy).Contents (Elt Ideal))
    (x6 : (⟨Cert.ReferenceIdeal.S1024x1024, .f32⟩ : BufTy).Contents (Elt Ideal)) (x7 : (⟨Cert.ReferenceIdeal.S1024, .f32⟩ : BufTy).Contents (Elt Ideal)) :
    Cert.ReferenceIdeal.Read.val_main_v30 (F := Ideal) x0 x1 x2 x3 x4 x5 x6 x7 = Cert.SigmoidAttention.result x0 x1 x2 x3 x4 x5 x6 x7 := by
  funext idx
  obtain ⟨n, i, e, rfl⟩ : ∃ (n : Fin 2) (i : Fin 4096) (e : Fin 1024), idx = ix3 n i e :=
    ⟨idx 0, idx 1, idx 2, eq_ix3 idx⟩
  have hl : ∀ j : Fin 4096, lidx_main_v30 (ix3 n i e) j = ix3 n i j := fun j => funext fun a => Fin.ext (by
    match a with | ⟨0, _⟩ => rfl | ⟨1, _⟩ => rfl | ⟨2, _⟩ => rfl)
  have hr : ∀ j : Fin 4096, ridx_main_v30 (ix3 n i e) j = ix3 n j e := fun j => funext fun a => Fin.ext (by
    match a with | ⟨0, _⟩ => rfl | ⟨1, _⟩ => rfl | ⟨2, _⟩ => rfl)
  rw [val_main_v30_apply, result_apply]
  simp only [hl, hr, ref_weight, ref_v]

end Cert.SigmoidAttention.Ref

end
-- ==== Proof.Equal.lean ====
/-
  The two programs end with equal results. From memories agreeing on the arguments, the kernel at the exact values ends
  with its result array at the specification's function of its arguments, and the reference with its result at the same
  function of ITS arguments, which are the same arrays.
-/
import proofs.«174353_j19756849562253_1_alg».proof.Defs
import proofs.«174353_j19756849562253_1_alg».proof.Proof.KI.KernelValue
import proofs.«174353_j19756849562253_1_alg».proof.Proof.RefIsSpec
import proofs.«174353_j19756849562253_1_alg».proof.Proof.Gen.ReferenceIdeal.Run

noncomputable section

namespace Cert.Proof

open Idealize.ShloMosaic Idealize.ShloMosaic.TcCoe Idealize.SL.Sem

theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.SigmoidAttention.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.KernelValue.kernel_result m ρ c), (h c).2⟩)
      (Cert.KernelIdeal.Calls.run_all (F := Ideal) m ρ)
  · refine (θ_run Cert.ReferenceIdeal.defs _ _).mono (fun _ h c => ⟨(h c).1.trans ?_, (h c).2⟩) (Cert.ReferenceIdeal.Value.run (F := Ideal) m' ρ')
    obtain ⟨h0, h1, h2, h3, h4, h5, h6, h7⟩ := hagree c
    rw [Cert.ReferenceIdeal.Read.val_main_v30_eq, Cert.SigmoidAttention.Ref.reference_is_result, h0, h1, h2, h3, h4, h5, h6, h7]

end Cert.Proof

end
-- ==== Proof.lean ====
/-
  Sigmoid ("linear") attention, a Pallas kernel in two calls against a plain jnp reference, at the exact values.

  With x the hidden states, q, k, v = x·Wᵀ + b the three projections, M the mask:
      result(n, i, e) = Σ_j σ( σ( (Σ_d q(n,i,d)·k(n,j,d)) · 2⁻⁵ ) · M(n,0,i,j) ) · v(n,j,e),        σ the logistic function.
  The kernel computes the three projections as ONE matrix product against the concatenated transposed weights, tile by
  tile, slices q, k, v out of it, and accumulates the result over eight tiles of 512 keys into each 512-row output block,
  starting from zeros. The reference computes every sum whole, divides the scores by √1024 and spells the logistic function
  as 1 / (1 + e⁻ˣ). On the extended reals these are one function: √1024 = 32 and division by the real 32 is multiplication
  by 2⁻⁵ on every extended real; 1 / (1 + e⁻ˣ) is the logistic function by definition, infinities included; a sum regrouped
  into tiles is the same sum (addition is commutative and associative on the extended reals); concatenating the transposed
  weights and slicing the product only renames indices. Nothing needs the inputs to be finite.

  The three frames: each kernel program (at the word level and at the exact values) runs as host operations, the
  projection call, host operations, the attention call; every body runs to its end on whatever its windows hold, no call
  and no host operation writes an argument array. The reference is a straight line of host operations.
  The idealization rewrote nothing in the kernel, so there is nothing to preserve.
-/
import proofs.«174353_j19756849562253_1_alg».proof.Defs
import proofs.«174353_j19756849562253_1_alg».proof.Proof.Gen.Kernel
import proofs.«174353_j19756849562253_1_alg».proof.Proof.Gen.KernelIdeal
import proofs.«174353_j19756849562253_1_alg».proof.Proof.Gen.ReferenceIdeal
import proofs.«174353_j19756849562253_1_alg».proof.Proof.Gen.Pre_finite_inputs
import proofs.«174353_j19756849562253_1_alg».proof.Proof.Gen.ReferenceIdeal.Run
import proofs.«174353_j19756849562253_1_alg».proof.Proof.K.MainRun
import proofs.«174353_j19756849562253_1_alg».proof.Proof.KI.MainRun
import proofs.«174353_j19756849562253_1_alg».proof.Proof.Equal
import Idealize.ShloMosaic.Adequacy
import Idealize.ShloMosaic.Init

noncomputable section

namespace Cert.Proof

open Idealize.ShloMosaic Idealize.SL.Sem

/-- The word-level kernel runs and leaves its arguments as launched. -/
theorem frame_k [Cert.Kernel.Facts] [Cert.Pre_finite_inputs.Facts] : Cert.frame_Kernel :=
  fun m ρ _ => Cert.Kernel.Calls.frame (F := Bits) m ρ

/-- So does the kernel at the exact values. -/
theorem frame_ki [Cert.KernelIdeal.Facts] [Cert.Pre_finite_inputs.Facts] : Cert.frame_KernelIdeal :=
  fun m ρ _ => Cert.KernelIdeal.Calls.frame (F := Ideal) m ρ

/-- The reference is a straight line of host operations: its run, with the result forgotten. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
